-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S8192 : Shape := ⟨1, ![8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S4096x8192 .f32) (main_v13 : IVec S_ 1) (main_v15 : IVec S4096x8192 1) (main_cst_5 : FVec F S_ .f32) : IVec S_ 1 :=
  let main_v16 : FVec F S4096x8192 .f32 := broadcastInDim S4096x8192 ![] bcast_S_S4096x8192 main_cst_5
  let main_v17 : IVec S4096x8192 1 := cmpf .oeq main_arg1 main_v16
  let main_v18 : IVec S4096x8192 1 := ori main_v15 main_v17
  let main_c_6 : IVec S_ 1 := constantI S_ 1 1#1
  let main_v19 : IVec S_ 1 := (fun x v => Host.reduce IntOp.andi x v reducesTo_S4096x8192_S_d0_1 h_S_) main_v18 main_c_6
  let main_v20 : IVec S_ 1 := andi main_v13 main_v19
  main_v20

def fn {F : FTy → Type} [FloatOps F] (main_arg0 : FVec F S4096x8192 .f32) (main_arg1 : FVec F S4096x8192 .f32) (main_arg2 : FVec F S8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_cst_4 : FVec F S_ .f32 := constant S_ .f32 0x00000000#32
  let main_v14 : FVec F S4096x8192 .f32 := broadcastInDim S4096x8192 ![] bcast_S_S4096x8192 main_cst_4
  let main_v15 : IVec S4096x8192 1 := cmpf .oeq main_arg1 main_v14
  let main_cst_5 : FVec F S_ .f32 := constant S_ .f32 0x3F800000#32
  fn_part1 (F := F) main_arg1 main_v13 main_v15 main_cst_5
-- ==== Kernel.lean ====
abbrev S4096x8192 : Shape := ⟨2, ![4096, 8192]⟩
abbrev S8192 : Shape := ⟨1, ![8192]⟩
abbrev S_ : Shape := ⟨0, ![]⟩
abbrev S1x8192 : Shape := ⟨2, ![1, 8192]⟩
abbrev S4096x1 : Shape := ⟨2, ![4096, 1]⟩
abbrev S128x8192 : Shape := ⟨2, ![128, 8192]⟩
abbrev S128x1 : Shape := ⟨2, ![128, 1]⟩
abbrev S128 : Shape := ⟨1, ![128]⟩
abbrev S1x1 : Shape := ⟨2, ![1, 1]⟩

abbrev nBuf : Space → Nat
  | .hbm => 46
  | .vmem => 30
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S8192, .f32⟩
  | .hbm, ⟨3, _⟩ => ⟨S_, .f32⟩
  | .hbm, ⟨4, _⟩ => ⟨S8192, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S1x8192, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | .hbm, ⟨30, _⟩ => ⟨S_, .f32⟩
  | .hbm, ⟨31, _⟩ => ⟨S_, .f32⟩
  | .hbm, ⟨32, _⟩ => ⟨S1x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x8192, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S128x1, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x8192, .f32⟩
  | .local _ .vmem, ⟨16, _⟩ => ⟨S128x8192, .f32⟩
  | .local _ .vmem, ⟨17, _⟩ => ⟨S128x8192, .f32⟩
  | .local _ .vmem, ⟨18, _⟩ => ⟨S128x8192, .f32⟩
  | .local _ .vmem, ⟨19, _⟩ => ⟨S1x8192, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | .local _ .vmem, ⟨24, _⟩ => ⟨S1x1, .f32⟩
  | .local _ .vmem, ⟨25, _⟩ => ⟨S1x1, .f32⟩
  | .local _ .vmem, ⟨26, _⟩ => ⟨S128x1, .f32⟩
  | .local _ .vmem, ⟨27, _⟩ => ⟨S128x1, .f32⟩
  | .local _ .vmem, ⟨28, _⟩ => ⟨S128x1, .f32⟩
  | .local _ .vmem, ⟨29, _⟩ => ⟨S128x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_cst_5 : Ref sig .tc := ⟨.hbm, 23, rfl⟩
abbrev main_v10 : Ref sig .tc := ⟨.hbm, 24, rfl⟩
abbrev main_cst_6 : Ref sig .tc := ⟨.hbm, 25, rfl⟩
abbrev main_v11 : Ref sig .tc := ⟨.hbm, 26, rfl⟩
abbrev main_cst_7 : Ref sig .tc := ⟨.hbm, 27, rfl⟩
abbrev main_v12 : Ref sig .tc := ⟨.hbm, 28, rfl⟩
abbrev main_v13 : Ref sig .tc := ⟨.hbm, 29, rfl⟩
abbrev main_cst_8 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20_0 : Ref sig .tc := ⟨.hbm, 37, rfl⟩
abbrev main_v20_1 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_cst_10 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x8192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S8192 : S_.BroadcastsInDim S8192 (![] : Fin 0 → Fin S8192.rank)
  shapeCasts_S8192_S1x8192 : S8192.ShapeCasts S1x8192
  inb_S128x8192_S128x8192_0_0 : ∀ a, (![0, 0] : Fin 2 → Nat) a + S128x8192.size a ≤ S128x8192.size a
  h_S128x8192 : 0 < S128x8192.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  broadcasts_S1x8192_S128x8192 : S1x8192.Broadcasts S128x8192
  reducesTo_S4096x1_S_d0_1 : S4096x1.ReducesTo [0, 1] S_
  h_S_ : 0 < S_.numel
  shapeCasts_S_S1x1 : S_.ShapeCasts S1x1
  bcast_S_S4096x1 : S_.BroadcastsInDim S4096x1 (![] : Fin 0 → Fin S4096x1.rank)
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x8192 : S1x1.Broadcasts S128x8192
  broadcasts_S128x1_S128x8192 : S128x1.Broadcasts S128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S4096x1.size a
  hwx0_3 : ∀ i : grid0.Coords, EltTy.bits .f32 = 32 ∨ (Rect.block (s := S4096x1) S128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S4096x1.size a
  hwx0_6 : ∀ i : grid0.Coords, EltTy.bits .f32 = 32 ∨ (Rect.block (s := S4096x1) S128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S4096x1.size a
  hwx0_7 : ∀ i : grid0.Coords, EltTy.bits .f32 = 32 ∨ (Rect.block (s := S4096x1) S128x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S4096x8192.size a
  hwx1_0 : ∀ i : grid1.Coords, EltTy.bits .f32 = 32 ∨ (Rect.block (s := S4096x8192) S128x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8192.size a ≤ S4096x8192.size a
  hwx1_1 : ∀ i : grid1.Coords, EltTy.bits .f32 = 32 ∨ (Rect.block (s := S4096x8192) S128x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x8192.size a ≤ S1x8192.size a
  hwx1_2 : ∀ i : grid1.Coords, EltTy.bits .f32 = 32 ∨ (Rect.block (s := S1x8192) S1x8192.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S4096x1.size a
  hwx1_3 : ∀ i : grid1.Coords, EltTy.bits .f32 = 32 ∨ (Rect.block (s := S4096x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x1.size a ≤ S4096x1.size a
  hwx1_4 : ∀ i : grid1.Coords, EltTy.bits .f32 = 32 ∨ (Rect.block (s := S4096x1) S128x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S4096x1.size a
  hwx1_7 : ∀ i : grid1.Coords, EltTy.bits .f32 = 32 ∨ (Rect.block (s := S4096x1) S128x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x1.size a ≤ S4096x1.size a
  hwx1_8 : ∀ i : grid1.Coords, EltTy.bits .f32 = 32 ∨ (Rect.block (s := S4096x1) S128x1.size (cc1_transform_8 i) (hinb1_8 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S128x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_3) S128x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_4) S128x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x8192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v19) S128x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20_0) S128x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v20_1) S128x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x8192 : Shape := ⟨2, ![4096, 8192]⟩
abbrev S8192 : Shape := ⟨1, ![8192]⟩
abbrev S_ : Shape := ⟨0, ![]⟩
abbrev S1x8192 : Shape := ⟨2, ![1, 8192]⟩
abbrev S4096 : Shape := ⟨1, ![4096]⟩
abbrev S4096x1 : Shape := ⟨2, ![4096, 1]⟩

abbrev nBuf : Space → Nat
  | .hbm => 120
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S8192, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S1x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x8192, .f32⟩
  | .hbm, ⟨39, _⟩ => ⟨S4096x8192, .f32⟩
  | .hbm, ⟨40, _⟩ => ⟨S4096x8192, .f32⟩
  | .hbm, ⟨41, _⟩ => ⟨S4096x8192, .f32⟩
  | .hbm, ⟨42, _⟩ => ⟨S4096x8192, .f32⟩
  | .hbm, ⟨43, _⟩ => ⟨S4096x8192, .f32⟩
  | .hbm, ⟨44, _⟩ => ⟨S_, .f32⟩
  | .hbm, ⟨45, _⟩ => ⟨S4096x8192, .f32⟩
  | .hbm, ⟨46, _⟩ => ⟨S4096x8192, .i1⟩
  | .hbm, ⟨47, _⟩ => ⟨S4096x8192, .f32⟩
  | .hbm, ⟨48, _⟩ => ⟨S4096x8192, .f32⟩
  | .hbm, ⟨49, _⟩ => ⟨S_, .f32⟩
  | .hbm, ⟨50, _⟩ => ⟨S_, .f32⟩
  | .hbm, ⟨51, _⟩ => ⟨S4096x8192, .f32⟩
  | .hbm, ⟨52, _⟩ => ⟨S4096x8192, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096x8192, .f32⟩
  | .hbm, ⟨60, _⟩ => ⟨S4096x8192, .f32⟩
  | .hbm, ⟨61, _⟩ => ⟨S4096x8192, .f32⟩
  | .hbm, ⟨62, _⟩ => ⟨S4096x8192, .f32⟩
  | .hbm, ⟨63, _⟩ => ⟨S_, .f32⟩
  | .hbm, ⟨64, _⟩ => ⟨S4096x8192, .f32⟩
  | .hbm, ⟨65, _⟩ => ⟨S4096x8192, .f32⟩
  | .hbm, ⟨66, _⟩ => ⟨S_, .f32⟩
  | .hbm, ⟨67, _⟩ => ⟨S4096x8192, .f32⟩
  | .hbm, ⟨68, _⟩ => ⟨S4096x8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S1x8192, .f32⟩
  | .hbm, ⟨76, _⟩ => ⟨S4096x8192, .f32⟩
  | .hbm, ⟨77, _⟩ => ⟨S4096x8192, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S4096x8192, .f32⟩
  | .hbm, ⟨83, _⟩ => ⟨S4096x8192, .f32⟩
  | .hbm, ⟨84, _⟩ => ⟨S4096x8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x8192, .f32⟩
  | .hbm, ⟨89, _⟩ => ⟨S4096x8192, .f32⟩
  | .hbm, ⟨90, _⟩ => ⟨S4096x8192, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x8192, .f32⟩
  | .hbm, ⟨97, _⟩ => ⟨S4096x8192, .f32⟩
  | .hbm, ⟨98, _⟩ => ⟨S4096x8192, .f32⟩
  | .hbm, ⟨99, _⟩ => ⟨S4096x8192, .f32⟩
  | .hbm, ⟨100, _⟩ => ⟨S4096x8192, .f32⟩
  | .hbm, ⟨101, _⟩ => ⟨S4096x8192, .f32⟩
  | .hbm, ⟨102, _⟩ => ⟨S_, .f32⟩
  | .hbm, ⟨103, _⟩ => ⟨S4096x8192, .f32⟩
  | .hbm, ⟨104, _⟩ => ⟨S4096x8192, .i1⟩
  | .hbm, ⟨105, _⟩ => ⟨S_, .f32⟩
  | .hbm, ⟨106, _⟩ => ⟨S4096x8192, .f32⟩
  | .hbm, ⟨107, _⟩ => ⟨S4096x8192, .f32⟩
  | .hbm, ⟨108, _⟩ => ⟨S4096x8192, .f32⟩
  | .hbm, ⟨109, _⟩ => ⟨S4096x8192, .f32⟩
  | .hbm, ⟨110, _⟩ => ⟨S_, .f32⟩
  | .hbm, ⟨111, _⟩ => ⟨S_, .f32⟩
  | .hbm, ⟨112, _⟩ => ⟨S4096x8192, .f32⟩
  | .hbm, ⟨113, _⟩ => ⟨S4096x8192, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_cst_16 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_17 : Ref sig .tc := ⟨.hbm, 78, rfl⟩
abbrev main_v55 : Ref sig .tc := ⟨.hbm, 79, rfl⟩
abbrev main_cst_18 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_19 : Ref sig .tc := ⟨.hbm, 85, rfl⟩
abbrev main_v60 : Ref sig .tc := ⟨.hbm, 86, rfl⟩
abbrev main_cst_20 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_21 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_22 : Ref sig .tc := ⟨.hbm, 102, rfl⟩
abbrev main_v74 : Ref sig .tc := ⟨.hbm, 103, rfl⟩
abbrev main_v75 : Ref sig .tc := ⟨.hbm, 104, rfl⟩
abbrev main_cst_23 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_24 : Ref sig .tc := ⟨.hbm, 110, rfl⟩
abbrev main_call1_v0 : Ref sig .tc := ⟨.hbm, 111, rfl⟩
abbrev main_call1_v1 : Ref sig .tc := ⟨.hbm, 112, rfl⟩
abbrev main_v80 : Ref sig .tc := ⟨.hbm, 113, rfl⟩
abbrev main_cst_25 : Ref sig .tc := ⟨.hbm, 114, rfl⟩
abbrev main_v81 : Ref sig .tc := ⟨.hbm, 115, rfl⟩
abbrev main_cst_26 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  reducesTo_S4096x8192_S_d0_1 : S4096x8192.ReducesTo [0, 1] S_
  h_S_ : 0 < S_.numel
  reducesTo_S4096x8192_S4096_d1 : S4096x8192.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)

variable [Facts₀]

class Facts : Prop extends Facts₀ where

variable [Facts]
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibFoldSelect.lean ====
/-
  Two general facts over the extended reals, where a float is read as the exact value it denotes: a fold of max from −∞ over a whole finite type
  is the supremum (Cert.Lib.fold_max_bot_eq_iSup: what a lane or a host maximum from −∞ computes), and a select on the
  comparison x > 0, the zero spelled by its f32 word, is the if on 0 < x (Cert.Lib.select_pos: a jnp.where(x > 0, a, b)).
-/
import Idealize.ShloMosaic.PureOps.Ideal.Laws

noncomputable section

namespace Cert.Lib

open Idealize.ShloMosaic

/-- A fold of max from −∞ over a whole finite type is the supremum. -/
theorem fold_max_bot_eq_iSup {ι : Type} [Fintype ι] (f : ι → EReal) :
    (Finset.univ : Finset ι).fold max ⊥ f = ⨆ k, f k := by
  rw [← Finset.sup_univ_eq_iSup]
  rfl

/-- Choosing by the comparison x > 0, the zero spelled by its float word, is the if on 0 < x. -/
theorem select_pos (l a b : EReal) :
    Scalar.select (FloatOps.cmpf (F := Ideal) (φ := .f32) .ogt l (Ideal.ofBits .f32 0x00000000#32)) a b
      = if 0 < l then a else b := by
  rw [Ideal.ofBits_zero_f32]
  by_cases h : 0 < l
  · simp [Scalar.select, Ideal.cmpf_def, Ideal.cmp, h]
  · simp [Scalar.select, Ideal.cmpf_def, Ideal.cmp, h]

end Cert.Lib

end
-- ==== Proof.Words.lean ====
/-
  The float words the two programs spell, as the extended reals they denote: 0, 1, 1/2, 1/4, the batch size
  2^25 = 4096 · 8192, and −∞ (the identity of a maximum).
-/
import Idealize.ShloMosaic.PureOps.Ideal

noncomputable section

namespace Cert.Words

open Idealize.ShloMosaic

/-- The word of +0.0 denotes 0. -/
theorem zero : Ideal.ofBits .f32 0x00000000#32 = 0 := by
  simp [Ideal.ofBits, Ideal.ieee]

/-- The word of 1.0 denotes 1. -/
theorem one : Ideal.ofBits .f32 0x3F800000#32 = 1 := by
  simp [Ideal.ofBits, Ideal.ieee, -EReal.coe_mul]; norm_num

/-- The word of 0.5 denotes the real 1/2. -/
theorem half : Ideal.ofBits .f32 0x3F000000#32 = ((1 / 2 : ℝ) : EReal) := by
  simp [Ideal.ofBits, Ideal.ieee, -EReal.coe_mul]; norm_num

/-- The word of 0.25 denotes the real 1/4. -/
theorem quarter : Ideal.ofBits .f32 0x3E800000#32 = ((1 / 4 : ℝ) : EReal) := by
  simp [Ideal.ofBits, Ideal.ieee, -EReal.coe_mul]; norm_num

/-- The word 0x4C000000 denotes 2^25 = 33554432, the number of entries of a [4096, 8192] array. -/
theorem batch : Ideal.ofBits .f32 0x4C000000#32 = ((33554432 : ℝ) : EReal) := by
  simp [Ideal.ofBits, Ideal.ieee, -EReal.coe_mul]; norm_num

/-- The word 0xFF800000 denotes −∞. -/
theorem negInf : Ideal.ofBits .f32 0xFF800000#32 = ⊥ := by
  simp [Ideal.ofBits, Ideal.ieee]

/-- The word 0x7F800000 denotes +∞. -/
theorem posInf : Ideal.ofBits .f32 0x7F800000#32 = ⊤ := by
  simp [Ideal.ofBits, Ideal.ieee]

end Cert.Words

end
-- ==== Proof.KPay0.lean ====
/-
  The statistics pass at one row: what each of its five per-row outputs holds at row r of a [128, 8192] block, as
  a sum or a supremum over the 8192 columns of the block's entries. x0 is the block of logits, x1 of labels, x2 the
  [1, 8192] row of margins.
-/
import proofs.«159326_j30880814858588_2_alg».proof.Proof.Gen.KernelIdeal.Skeleton
import proofs.«159326_j30880814858588_2_alg».proof.Proof.LibColumnLayout
import proofs.«159326_j30880814858588_2_alg».proof.Proof.LibFoldSelect
import proofs.«159326_j30880814858588_2_alg».proof.Proof.Words
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Lanes

open Cert.KernelIdeal Cert.KernelIdeal.Gen
open Idealize.ShloMosaic Idealize.ShloMosaic.ValueIdx

/-- Row r of the reduced vector, with column k put back, is entry (r, k). -/
theorem lift_row (r : Fin 128) (k : Fin 8192) : Facts₀.reduces_S128x8192_S128.lift (ix1 r) k = ix2 r k := by
  funext a
  match a with
  | ⟨0, _⟩ => rfl
  | ⟨1, _⟩ => rfl

/-- A lane sum kept as a column: at row r the sum of the row's 8192 entries. -/
theorem rowSum_apply (src : FVec Ideal S128x8192 .f32) (r : Fin 128) (u : Fin 1) :
    shapeCast S128x1 (multiReduction .add [1] S128 src 0x00000000#32 Facts₀.reduces_S128x8192_S128 (.inl rfl) rfl)
        Facts₀.shapeCasts_S128_S128x1 (ix2 r u)
      = ∑ k : Fin 8192, src (ix2 r k) := by
  refine (Cert.Lib.shapeCast_a_a1_apply _ _ r u).trans ?_
  refine (Ideal.multiReduction_add_single src 0x00000000#32 Facts₀.reduces_S128x8192_S128 (.inl rfl) rfl (ix1 r)).trans ?_
  exact Finset.sum_congr rfl fun k _ => congrArg src (lift_row r k)

/-- A lane maximum from −∞ kept as a column: at row r the supremum of the row's 8192 entries. -/
theorem rowMax_apply (src : FVec Ideal S128x8192 .f32) (r : Fin 128) (u : Fin 1) :
    shapeCast S128x1 (multiReduction .maximumf [1] S128 src 0xFF800000#32 Facts₀.reduces_S128x8192_S128 (.inl rfl) rfl)
        Facts₀.shapeCasts_S128_S128x1 (ix2 r u)
      = ⨆ k : Fin 8192, src (ix2 r k) := by
  refine (Cert.Lib.shapeCast_a_a1_apply _ _ r u).trans ?_
  refine (Ideal.multiReduction_maximumf_single src 0xFF800000#32 Facts₀.reduces_S128x8192_S128 (.inl rfl) rfl (ix1 r)).trans ?_
  rw [Ideal.ofBits_def, Cert.Words.negInf, Cert.Lib.fold_max_bot_eq_iSup]
  exact iSup_congr fun k => congrArg src (lift_row r k)

end Cert.KernelIdeal.Lanes

namespace Cert.KernelIdeal.Stats

open Cert.KernelIdeal Cert.KernelIdeal.Gen Cert.KernelIdeal.Lanes
open Idealize.ShloMosaic Idealize.ShloMosaic.ValueIdx

variable (x0 x1 : FVec Ideal S128x8192 .f32) (x2 : FVec Ideal S1x8192 .f32) (r : Fin 128) (u : Fin 1)

/-- The first output at row r: the sum over the columns of score · label. -/
theorem pos_apply : k0_pay3 (F := Ideal) x0 x1 (ix2 r u)
    = ∑ k : Fin 8192, Ideal.logistic (x0 (ix2 r k)) * x1 (ix2 r k) := by
  unfold k0_pay3 k0_pay2
  exact (rowSum_apply _ r u).trans (Finset.sum_congr rfl fun k _ => rfl)

/-- The second output at row r: (the row sum of the scores) − (the row sum of score · label). -/
theorem neg_apply : k0_pay4 (F := Ideal) x0 x1 (ix2 r u)
    = (∑ k : Fin 8192, Ideal.logistic (x0 (ix2 r k))) - ∑ k : Fin 8192, Ideal.logistic (x0 (ix2 r k)) * x1 (ix2 r k) := by
  unfold k0_pay4 k0_pay2
  exact congrArg₂ (· - ·) ((rowSum_apply _ r u).trans (Finset.sum_congr rfl fun k _ => rfl)) (pos_apply x0 x1 r u)

/-- The margin selected by a positive label, 0 elsewhere, at entry (r, k). -/
theorem selPos_entry (k : Fin 8192) :
    select (k0_pay5 (F := Ideal) x1)
        (broadcastTo S128x8192 (shapeCast S1x8192 (k0_pay1 (F := Ideal) x2) Facts₀.shapeCasts_S1x8192_S1x8192) Facts₀.broadcasts_S1x8192_S128x8192)
        (broadcast S128x8192 (Scalar.ofBits (F := Ideal) .f32 0x00000000#32)) (ix2 r k)
      = if 0 < x1 (ix2 r k) then x2 (ix2 (0 : Fin 1) k) else 0 := by
  unfold k0_pay5 k0_pay1
  refine (Cert.Lib.select_pos (x1 (ix2 r k)) _ _).trans ?_
  rw [shapeCast_self, shapeCast_self, broadcastTo_1b_ab_apply]
  exact if_congr Iff.rfl rfl Cert.Words.zero

/-- The margin selected by a non-positive label, 0 at the positive ones, at entry (r, k). -/
theorem selNeg_entry (k : Fin 8192) :
    select (k0_pay5 (F := Ideal) x1)
        (broadcast S128x8192 (Scalar.ofBits (F := Ideal) .f32 0x00000000#32))
        (broadcastTo S128x8192 (shapeCast S1x8192 (k0_pay1 (F := Ideal) x2) Facts₀.shapeCasts_S1x8192_S1x8192) Facts₀.broadcasts_S1x8192_S128x8192)
        (ix2 r k)
      = if 0 < x1 (ix2 r k) then 0 else x2 (ix2 (0 : Fin 1) k) := by
  unfold k0_pay5 k0_pay1
  refine (Cert.Lib.select_pos (x1 (ix2 r k)) _ _).trans ?_
  rw [shapeCast_self, shapeCast_self, broadcastTo_1b_ab_apply]
  exact if_congr Iff.rfl Cert.Words.zero rfl

/-- The third output at row r: the largest margin at a positive label of the row (0 stands at the others). -/
theorem maxPos_apply : k0_pay6 (F := Ideal) x1 x2 (ix2 r u)
    = ⨆ k : Fin 8192, (if 0 < x1 (ix2 r k) then x2 (ix2 (0 : Fin 1) k) else 0) := by
  unfold k0_pay6
  exact (rowMax_apply _ r u).trans (iSup_congr fun k => selPos_entry x1 x2 r k)

/-- The fourth output at row r: the largest margin at a non-positive label of the row. -/
theorem maxNeg_apply : k0_pay7 (F := Ideal) x1 x2 (ix2 r u)
    = ⨆ k : Fin 8192, (if 0 < x1 (ix2 r k) then 0 else x2 (ix2 (0 : Fin 1) k)) := by
  unfold k0_pay7
  exact (rowMax_apply _ r u).trans (iSup_congr fun k => selNeg_entry x1 x2 r k)

/-- The fifth output at row r: the row sum of the labels. -/
theorem count_apply : k0_pay8 (F := Ideal) x1 (ix2 r u) = ∑ k : Fin 8192, x1 (ix2 r k) := by
  unfold k0_pay8
  exact rowSum_apply _ r u

end Cert.KernelIdeal.Stats

end
-- ==== Proof.KStats.lean ====
/-
  The statistics region's output arrays, whole. Point t of the 32-point grid reads rows 128t … 128t+127 of the
  logits and labels and the one row of margins, and writes rows 128t … 128t+127 of each [4096, 1] output; the 32
  blocks tile the 4096 rows. So each output array ends holding, at row i, the row statistic of row i of the arrays
  the region finds.
-/
import proofs.«159326_j30880814858588_2_alg».proof.Proof.Gen.KernelIdeal.Frame
import proofs.«159326_j30880814858588_2_alg».proof.Proof.KPay0
import Idealize.ShloMosaic.Lib.Pipeline.Value

set_option maxRecDepth 16384

noncomputable section

namespace Cert.KernelIdeal.StatsValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row of a [4096, 1] index. -/
def rowOf (i : S4096x1.Idx) : Fin 4096 := ⟨(i 0).val, idx2_lt0 i⟩

/-- The printed index maps over the grid: a [128, ·] window's block row is the point, every block column is 0, and
    the margins' window stays at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Entry x of the logits' block at point t is entry (128t + row, column) of the logits. -/
theorem iblk0_0_apply (c : Dev nD) (t : Fin cfg0.N) (x : S128x8192.Idx) (k : S4096x8192.Idx)
    (hk0 : (k 0).val = 128 * t.val + (x 0).val) (hk1 : (k 1).val = (x 1).val) :
    (iblk0 V c 0 t : Vec Ideal S128x8192 .f32) x = (V c main_arg0 : S4096x8192.Idx → EReal) k := by
  obtain ⟨e0, e1, -⟩ := idx0 t
  unfold iblk0
  rw [View.read_apply]
  show V c main_arg0 _ = V c main_arg0 _
  congr 1
  funext a
  apply Fin.ext
  match a with
  | ⟨0, _⟩ => show win0_0.index t 0 * 128 + 1 * (x 0).val = (k 0).val; rw [e0, hk0]; omega
  | ⟨1, _⟩ => show win0_0.index t 1 * 8192 + 1 * (x 1).val = (k 1).val; rw [e1, hk1]; omega

/-- Entry x of the labels' block at point t is entry (128t + row, column) of the labels. -/
theorem iblk0_1_apply (c : Dev nD) (t : Fin cfg0.N) (x : S128x8192.Idx) (k : S4096x8192.Idx)
    (hk0 : (k 0).val = 128 * t.val + (x 0).val) (hk1 : (k 1).val = (x 1).val) :
    (iblk0 V c 1 t : Vec Ideal S128x8192 .f32) x = (V c main_arg1 : S4096x8192.Idx → EReal) k := by
  obtain ⟨-, -, e0, e1, -⟩ := idx0 t
  unfold iblk0
  rw [View.read_apply]
  show V c main_arg1 _ = V c main_arg1 _
  congr 1
  funext a
  apply Fin.ext
  match a with
  | ⟨0, _⟩ => show win0_1.index t 0 * 128 + 1 * (x 0).val = (k 0).val; rw [e0, hk0]; omega
  | ⟨1, _⟩ => show win0_1.index t 1 * 8192 + 1 * (x 1).val = (k 1).val; rw [e1, hk1]; omega

/-- The margins' block at every point is the margins' one row. -/
theorem iblk0_2_apply (c : Dev nD) (t : Fin cfg0.N) (x : S1x8192.Idx) :
    (iblk0 V c 2 t : Vec Ideal S1x8192 .f32) x = (V c main_v4 : S1x8192.Idx → EReal) x := by
  obtain ⟨-, -, -, -, e0, e1, -⟩ := idx0 t
  unfold iblk0
  rw [View.read_apply]
  show V c main_v4 _ = V c main_v4 _
  congr 1
  funext a
  apply Fin.ext
  match a with
  | ⟨0, _⟩ => show win0_2.index t 0 * 1 + 1 * (x 0).val = (x 0).val; rw [e0]; omega
  | ⟨1, _⟩ => show win0_2.index t 1 * 8192 + 1 * (x 1).val = (x 1).val; rw [e1]; omega

/-- The row sums of score · label of the arrays a0 (logits) and a1 (labels), as a [4096, 1] column. -/
def colPos (a0 a1 : S4096x8192.Idx → EReal) : S4096x1.Idx → EReal :=
  fun i => ∑ k : Fin 8192, Ideal.logistic (a0 (ix2 (rowOf i) k)) * a1 (ix2 (rowOf i) k)

/-- (The row sums of the scores) − (the row sums of score · label). -/
def colNeg (a0 a1 : S4096x8192.Idx → EReal) : S4096x1.Idx → EReal :=
  fun i => (∑ k : Fin 8192, Ideal.logistic (a0 (ix2 (rowOf i) k)))
    - ∑ k : Fin 8192, Ideal.logistic (a0 (ix2 (rowOf i) k)) * a1 (ix2 (rowOf i) k)

/-- Each row's largest margin at a positive label (0 stands at the others); a4 is the [1, 8192] row of margins. -/
def colMaxPos (a1 : S4096x8192.Idx → EReal) (a4 : S1x8192.Idx → EReal) : S4096x1.Idx → EReal :=
  fun i => ⨆ k : Fin 8192, (if 0 < a1 (ix2 (rowOf i) k) then a4 (ix2 (0 : Fin 1) k) else 0)

/-- Each row's largest margin at a non-positive label (0 stands at the positive ones). -/
def colMaxNeg (a1 : S4096x8192.Idx → EReal) (a4 : S1x8192.Idx → EReal) : S4096x1.Idx → EReal :=
  fun i => ⨆ k : Fin 8192, (if 0 < a1 (ix2 (rowOf i) k) then 0 else a4 (ix2 (0 : Fin 1) k))

/-- The row sums of the labels. -/
def colCount (a1 : S4096x8192.Idx → EReal) : S4096x1.Idx → EReal :=
  fun i => ∑ k : Fin 8192, a1 (ix2 (rowOf i) k)

/-- Row y of block t of the first output sits at row 128t + y of the array. -/
theorem emb0_3_row (t : Fin cfg0.N) (y : S128x1.Idx) :
    ((((cfg0.win 3).blk t).view.emb y) 0).val = 128 * t.val + (y 0).val := by
  obtain ⟨-, -, -, -, -, -, e0, -⟩ := idx0 t
  show win0_3.index t 0 * 128 + 1 * (y 0).val = _
  rw [e0]; omega

/-- What point t writes back to the first output is block t of colPos of the arrays the region finds. -/
theorem flushed0_3 (c : Dev nD) (t : Fin cfg0.N) :
    (dat0 V c).flushed 3 t = ((cfg0.win 3).blk t).view.read (Elt Ideal) (colPos (V c main_arg0) (V c main_arg1)) := by
  show (cfg0.win 3).cut (grid0.coords t) ((dat0 V c).after 3 t) = _
  rw [after0_3]
  unfold out0_3
  rw [View.canon_unit_zero hz]
  simp only [View.ld_unit_zero (S := S128x8192) hz]
  funext y
  obtain ⟨r, u, rfl⟩ : ∃ (r : Fin 128) (u : Fin 1), y = ix2 r u := ⟨y 0, y 1, eq_ix2 y⟩
  refine (Stats.pos_apply (iblk0 V c 0 t) (iblk0 V c 1 t) r u).trans ?_
  rw [View.read_apply]
  unfold colPos
  refine Finset.sum_congr rfl fun k _ => ?_
  have hr := emb0_3_row t (ix2 r u)
  exact congrArg₂ (fun a b => Ideal.logistic a * b)
    (iblk0_0_apply V c t (ix2 r k) (ix2 (rowOf (((cfg0.win 3).blk t).view.emb (ix2 r u))) k) hr rfl)
    (iblk0_1_apply V c t (ix2 r k) (ix2 (rowOf (((cfg0.win 3).blk t).view.emb (ix2 r u))) k) hr rfl)

/-- Every row of the first output lies in the block of the point row / 128. -/
theorem cover0_3 (i : S4096x1.Idx) :
    ∃ t : Fin cfg0.N, (cfg0.win 3).flush t = true ∧ i ∈ ((cfg0.win 3).blk t).view.set := by
  have hi0 : (i 0).val < 4096 := idx2_lt0 i
  have hi1 : (i 1).val < 1 := idx2_lt1 i
  have hN : cfg0.N = 32 := N_0
  have ht : (i 0).val / 128 < cfg0.N := by rw [hN]; omega
  refine ⟨⟨(i 0).val / 128, ht⟩, flush0_3 _, ?_⟩
  obtain ⟨-, -, -, -, -, -, e0, e1, -⟩ := idx0 ⟨(i 0).val / 128, ht⟩
  show i ∈ ((View.whole main_v5_0).slice (win0_3.rect ⟨(i 0).val / 128, ht⟩)).set
  rw [View.set_slice_whole, Rect.mem_set_unit]
  intro a
  match a with
  | ⟨0, _⟩ =>
    show win0_3.index ⟨(i 0).val / 128, ht⟩ 0 * 128 ≤ (i 0).val ∧ (i 0).val < win0_3.index ⟨(i 0).val / 128, ht⟩ 0 * 128 + 128
    rw [e0]; show (i 0).val / 128 * 128 ≤ (i 0).val ∧ (i 0).val < (i 0).val / 128 * 128 + 128; omega
  | ⟨1, _⟩ =>
    show win0_3.index ⟨(i 0).val / 128, ht⟩ 1 * 1 ≤ (i 1).val ∧ (i 1).val < win0_3.index ⟨(i 0).val / 128, ht⟩ 1 * 1 + 1
    rw [e1]; omega

/-- The first output array after the region. -/
theorem final0_3 (c : Dev nD) : (dat0 V c).arrAt 3 cfg0.N = colPos (V c main_arg0) (V c main_arg1) :=
  (dat0 V c).arrAt_eq_of_cover 3 _ (fun t _ => flushed0_3 V c t) cover0_3

/-- Row y of block t of the second output sits at row 128t + y of the array. -/
theorem emb0_4_row (t : Fin cfg0.N) (y : S128x1.Idx) :
    ((((cfg0.win 4).blk t).view.emb y) 0).val = 128 * t.val + (y 0).val := by
  obtain ⟨-, -, -, -, -, -, -, -, e0, -⟩ := idx0 t
  show win0_4.index t 0 * 128 + 1 * (y 0).val = _
  rw [e0]; omega

/-- What point t writes back to the second output is block t of colNeg of the arrays the region finds. -/
theorem flushed0_4 (c : Dev nD) (t : Fin cfg0.N) :
    (dat0 V c).flushed 4 t = ((cfg0.win 4).blk t).view.read (Elt Ideal) (colNeg (V c main_arg0) (V c main_arg1)) := by
  show (cfg0.win 4).cut (grid0.coords t) ((dat0 V c).after 4 t) = _
  rw [after0_4]
  unfold out0_4
  rw [View.canon_unit_zero hz]
  simp only [View.ld_unit_zero (S := S128x8192) hz]
  funext y
  obtain ⟨r, u, rfl⟩ : ∃ (r : Fin 128) (u : Fin 1), y = ix2 r u := ⟨y 0, y 1, eq_ix2 y⟩
  refine (Stats.neg_apply (iblk0 V c 0 t) (iblk0 V c 1 t) r u).trans ?_
  rw [View.read_apply]
  unfold colNeg
  have hr := emb0_4_row t (ix2 r u)
  refine congrArg₂ (· - ·) (Finset.sum_congr rfl fun k _ => ?_) (Finset.sum_congr rfl fun k _ => ?_)
  · exact congrArg Ideal.logistic
      (iblk0_0_apply V c t (ix2 r k) (ix2 (rowOf (((cfg0.win 4).blk t).view.emb (ix2 r u))) k) hr rfl)
  · exact congrArg₂ (fun a b => Ideal.logistic a * b)
      (iblk0_0_apply V c t (ix2 r k) (ix2 (rowOf (((cfg0.win 4).blk t).view.emb (ix2 r u))) k) hr rfl)
      (iblk0_1_apply V c t (ix2 r k) (ix2 (rowOf (((cfg0.win 4).blk t).view.emb (ix2 r u))) k) hr rfl)

/-- Every row of the second output lies in the block of the point row / 128. -/
theorem cover0_4 (i : S4096x1.Idx) :
    ∃ t : Fin cfg0.N, (cfg0.win 4).flush t = true ∧ i ∈ ((cfg0.win 4).blk t).view.set := by
  have hi0 : (i 0).val < 4096 := idx2_lt0 i
  have hi1 : (i 1).val < 1 := idx2_lt1 i
  have hN : cfg0.N = 32 := N_0
  have ht : (i 0).val / 128 < cfg0.N := by rw [hN]; omega
  refine ⟨⟨(i 0).val / 128, ht⟩, flush0_4 _, ?_⟩
  obtain ⟨-, -, -, -, -, -, -, -, e0, e1, -⟩ := idx0 ⟨(i 0).val / 128, ht⟩
  show i ∈ ((View.whole main_v5_1).slice (win0_4.rect ⟨(i 0).val / 128, ht⟩)).set
  rw [View.set_slice_whole, Rect.mem_set_unit]
  intro a
  match a with
  | ⟨0, _⟩ =>
    show win0_4.index ⟨(i 0).val / 128, ht⟩ 0 * 128 ≤ (i 0).val ∧ (i 0).val < win0_4.index ⟨(i 0).val / 128, ht⟩ 0 * 128 + 128
    rw [e0]; show (i 0).val / 128 * 128 ≤ (i 0).val ∧ (i 0).val < (i 0).val / 128 * 128 + 128; omega
  | ⟨1, _⟩ =>
    show win0_4.index ⟨(i 0).val / 128, ht⟩ 1 * 1 ≤ (i 1).val ∧ (i 1).val < win0_4.index ⟨(i 0).val / 128, ht⟩ 1 * 1 + 1
    rw [e1]; omega

/-- The second output array after the region. -/
theorem final0_4 (c : Dev nD) : (dat0 V c).arrAt 4 cfg0.N = colNeg (V c main_arg0) (V c main_arg1) :=
  (dat0 V c).arrAt_eq_of_cover 4 _ (fun t _ => flushed0_4 V c t) cover0_4

/-- Row y of block t of the third output sits at row 128t + y of the array. -/
theorem emb0_5_row (t : Fin cfg0.N) (y : S128x1.Idx) :
    ((((cfg0.win 5).blk t).view.emb y) 0).val = 128 * t.val + (y 0).val := by
  obtain ⟨-, -, -, -, -, -, -, -, -, -, e0, -⟩ := idx0 t
  show win0_5.index t 0 * 128 + 1 * (y 0).val = _
  rw [e0]; omega

/-- What point t writes back to the third output is block t of colMaxPos of the arrays the region finds. -/
theorem flushed0_5 (c : Dev nD) (t : Fin cfg0.N) :
    (dat0 V c).flushed 5 t = ((cfg0.win 5).blk t).view.read (Elt Ideal) (colMaxPos (V c main_arg1) (V c main_v4)) := by
  show (cfg0.win 5).cut (grid0.coords t) ((dat0 V c).after 5 t) = _
  rw [after0_5]
  unfold out0_5
  rw [View.canon_unit_zero hz]
  simp only [View.ld_unit_zero (S := S128x8192) hz, View.ld_unit_zero (S := S1x8192) hz]
  funext y
  obtain ⟨r, u, rfl⟩ : ∃ (r : Fin 128) (u : Fin 1), y = ix2 r u := ⟨y 0, y 1, eq_ix2 y⟩
  refine (Stats.maxPos_apply (iblk0 V c 1 t) (iblk0 V c 2 t) r u).trans ?_
  rw [View.read_apply]
  unfold colMaxPos
  have hr := emb0_5_row t (ix2 r u)
  refine iSup_congr fun k => ?_
  have h1 := iblk0_1_apply V c t (ix2 r k) (ix2 (rowOf (((cfg0.win 5).blk t).view.emb (ix2 r u))) k) hr rfl
  have h2 := iblk0_2_apply V c t (ix2 (0 : Fin 1) k)
  rw [h1, h2]

/-- Every row of the third output lies in the block of the point row / 128. -/
theorem cover0_5 (i : S4096x1.Idx) :
    ∃ t : Fin cfg0.N, (cfg0.win 5).flush t = true ∧ i ∈ ((cfg0.win 5).blk t).view.set := by
  have hi0 : (i 0).val < 4096 := idx2_lt0 i
  have hi1 : (i 1).val < 1 := idx2_lt1 i
  have hN : cfg0.N = 32 := N_0
  have ht : (i 0).val / 128 < cfg0.N := by rw [hN]; omega
  refine ⟨⟨(i 0).val / 128, ht⟩, flush0_5 _, ?_⟩
  obtain ⟨-, -, -, -, -, -, -, -, -, -, e0, e1, -⟩ := idx0 ⟨(i 0).val / 128, ht⟩
  show i ∈ ((View.whole main_v5_2).slice (win0_5.rect ⟨(i 0).val / 128, ht⟩)).set
  rw [View.set_slice_whole, Rect.mem_set_unit]
  intro a
  match a with
  | ⟨0, _⟩ =>
    show win0_5.index ⟨(i 0).val / 128, ht⟩ 0 * 128 ≤ (i 0).val ∧ (i 0).val < win0_5.index ⟨(i 0).val / 128, ht⟩ 0 * 128 + 128
    rw [e0]; show (i 0).val / 128 * 128 ≤ (i 0).val ∧ (i 0).val < (i 0).val / 128 * 128 + 128; omega
  | ⟨1, _⟩ =>
    show win0_5.index ⟨(i 0).val / 128, ht⟩ 1 * 1 ≤ (i 1).val ∧ (i 1).val < win0_5.index ⟨(i 0).val / 128, ht⟩ 1 * 1 + 1
    rw [e1]; omega

/-- The third output array after the region. -/
theorem final0_5 (c : Dev nD) : (dat0 V c).arrAt 5 cfg0.N = colMaxPos (V c main_arg1) (V c main_v4) :=
  (dat0 V c).arrAt_eq_of_cover 5 _ (fun t _ => flushed0_5 V c t) cover0_5

/-- Row y of block t of the fourth output sits at row 128t + y of the array. -/
theorem emb0_6_row (t : Fin cfg0.N) (y : S128x1.Idx) :
    ((((cfg0.win 6).blk t).view.emb y) 0).val = 128 * t.val + (y 0).val := by
  obtain ⟨-, -, -, -, -, -, -, -, -, -, -, -, e0, -⟩ := idx0 t
  show win0_6.index t 0 * 128 + 1 * (y 0).val = _
  rw [e0]; omega

/-- What point t writes back to the fourth output is block t of colMaxNeg of the arrays the region finds. -/
theorem flushed0_6 (c : Dev nD) (t : Fin cfg0.N) :
    (dat0 V c).flushed 6 t = ((cfg0.win 6).blk t).view.read (Elt Ideal) (colMaxNeg (V c main_arg1) (V c main_v4)) := by
  show (cfg0.win 6).cut (grid0.coords t) ((dat0 V c).after 6 t) = _
  rw [after0_6]
  unfold out0_6
  rw [View.canon_unit_zero hz]
  simp only [View.ld_unit_zero (S := S128x8192) hz, View.ld_unit_zero (S := S1x8192) hz]
  funext y
  obtain ⟨r, u, rfl⟩ : ∃ (r : Fin 128) (u : Fin 1), y = ix2 r u := ⟨y 0, y 1, eq_ix2 y⟩
  refine (Stats.maxNeg_apply (iblk0 V c 1 t) (iblk0 V c 2 t) r u).trans ?_
  rw [View.read_apply]
  unfold colMaxNeg
  have hr := emb0_6_row t (ix2 r u)
  refine iSup_congr fun k => ?_
  have h1 := iblk0_1_apply V c t (ix2 r k) (ix2 (rowOf (((cfg0.win 6).blk t).view.emb (ix2 r u))) k) hr rfl
  have h2 := iblk0_2_apply V c t (ix2 (0 : Fin 1) k)
  rw [h1, h2]

/-- Every row of the fourth output lies in the block of the point row / 128. -/
theorem cover0_6 (i : S4096x1.Idx) :
    ∃ t : Fin cfg0.N, (cfg0.win 6).flush t = true ∧ i ∈ ((cfg0.win 6).blk t).view.set := by
  have hi0 : (i 0).val < 4096 := idx2_lt0 i
  have hi1 : (i 1).val < 1 := idx2_lt1 i
  have hN : cfg0.N = 32 := N_0
  have ht : (i 0).val / 128 < cfg0.N := by rw [hN]; omega
  refine ⟨⟨(i 0).val / 128, ht⟩, flush0_6 _, ?_⟩
  obtain ⟨-, -, -, -, -, -, -, -, -, -, -, -, e0, e1, -⟩ := idx0 ⟨(i 0).val / 128, ht⟩
  show i ∈ ((View.whole main_v5_3).slice (win0_6.rect ⟨(i 0).val / 128, ht⟩)).set
  rw [View.set_slice_whole, Rect.mem_set_unit]
  intro a
  match a with
  | ⟨0, _⟩ =>
    show win0_6.index ⟨(i 0).val / 128, ht⟩ 0 * 128 ≤ (i 0).val ∧ (i 0).val < win0_6.index ⟨(i 0).val / 128, ht⟩ 0 * 128 + 128
    rw [e0]; show (i 0).val / 128 * 128 ≤ (i 0).val ∧ (i 0).val < (i 0).val / 128 * 128 + 128; omega
  | ⟨1, _⟩ =>
    show win0_6.index ⟨(i 0).val / 128, ht⟩ 1 * 1 ≤ (i 1).val ∧ (i 1).val < win0_6.index ⟨(i 0).val / 128, ht⟩ 1 * 1 + 1
    rw [e1]; omega

/-- The fourth output array after the region. -/
theorem final0_6 (c : Dev nD) : (dat0 V c).arrAt 6 cfg0.N = colMaxNeg (V c main_arg1) (V c main_v4) :=
  (dat0 V c).arrAt_eq_of_cover 6 _ (fun t _ => flushed0_6 V c t) cover0_6

/-- Row y of block t of the fifth output sits at row 128t + y of the array. -/
theorem emb0_7_row (t : Fin cfg0.N) (y : S128x1.Idx) :
    ((((cfg0.win 7).blk t).view.emb y) 0).val = 128 * t.val + (y 0).val := by
  obtain ⟨-, -, -, -, -, -, -, -, -, -, -, -, -, -, e0, -⟩ := idx0 t
  show win0_7.index t 0 * 128 + 1 * (y 0).val = _
  rw [e0]; omega

/-- What point t writes back to the fifth output is block t of colCount of the arrays the region finds. -/
theorem flushed0_7 (c : Dev nD) (t : Fin cfg0.N) :
    (dat0 V c).flushed 7 t = ((cfg0.win 7).blk t).view.read (Elt Ideal) (colCount (V c main_arg1)) := by
  show (cfg0.win 7).cut (grid0.coords t) ((dat0 V c).after 7 t) = _
  rw [after0_7]
  unfold out0_7
  rw [View.canon_unit_zero hz]
  simp only [View.ld_unit_zero (S := S128x8192) hz]
  funext y
  obtain ⟨r, u, rfl⟩ : ∃ (r : Fin 128) (u : Fin 1), y = ix2 r u := ⟨y 0, y 1, eq_ix2 y⟩
  refine (Stats.count_apply (iblk0 V c 1 t) r u).trans ?_
  rw [View.read_apply]
  unfold colCount
  have hr := emb0_7_row t (ix2 r u)
  refine Finset.sum_congr rfl fun k _ => ?_
  exact iblk0_1_apply V c t (ix2 r k) (ix2 (rowOf (((cfg0.win 7).blk t).view.emb (ix2 r u))) k) hr rfl

/-- Every row of the fifth output lies in the block of the point row / 128. -/
theorem cover0_7 (i : S4096x1.Idx) :
    ∃ t : Fin cfg0.N, (cfg0.win 7).flush t = true ∧ i ∈ ((cfg0.win 7).blk t).view.set := by
  have hi0 : (i 0).val < 4096 := idx2_lt0 i
  have hi1 : (i 1).val < 1 := idx2_lt1 i
  have hN : cfg0.N = 32 := N_0
  have ht : (i 0).val / 128 < cfg0.N := by rw [hN]; omega
  refine ⟨⟨(i 0).val / 128, ht⟩, flush0_7 _, ?_⟩
  obtain ⟨-, -, -, -, -, -, -, -, -, -, -, -, -, -, e0, e1⟩ := idx0 ⟨(i 0).val / 128, ht⟩
  show i ∈ ((View.whole main_v5_4).slice (win0_7.rect ⟨(i 0).val / 128, ht⟩)).set
  rw [View.set_slice_whole, Rect.mem_set_unit]
  intro a
  match a with
  | ⟨0, _⟩ =>
    show win0_7.index ⟨(i 0).val / 128, ht⟩ 0 * 128 ≤ (i 0).val ∧ (i 0).val < win0_7.index ⟨(i 0).val / 128, ht⟩ 0 * 128 + 128
    rw [e0]; show (i 0).val / 128 * 128 ≤ (i 0).val ∧ (i 0).val < (i 0).val / 128 * 128 + 128; omega
  | ⟨1, _⟩ =>
    show win0_7.index ⟨(i 0).val / 128, ht⟩ 1 * 1 ≤ (i 1).val ∧ (i 1).val < win0_7.index ⟨(i 0).val / 128, ht⟩ 1 * 1 + 1
    rw [e1]; omega

/-- The fifth output array after the region. -/
theorem final0_7 (c : Dev nD) : (dat0 V c).arrAt 7 cfg0.N = colCount (V c main_arg1) :=
  (dat0 V c).arrAt_eq_of_cover 7 _ (fun t _ => flushed0_7 V c t) cover0_7

end Cert.KernelIdeal.StatsValue

end
-- ==== Proof.LibUnitSpread.lean ====
/-
  A one-entry array spread over a block, read at an index, for any element type: a [1, 1] array broadcast to [a, b]
  reads its one entry everywhere (Cert.Lib.broadcastTo_11_ab_apply: a scalar kept as a [1, 1] operand of a kernel).
-/
import Idealize.ShloMosaic.Lib.ValueLayout

namespace Cert.Lib

open Idealize.ShloMosaic Idealize.ShloMosaic.ValueIdx

/-- A [1, 1] array broadcast to [a, b] reads, everywhere, its one entry. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Lib
-- ==== Proof.KPay1.lean ====
/-
  The loss pass at one row: the two per-row sums it writes, at row r of a [128, 8192] block, as sums over the 8192
  columns. x0 is the block of logits, x1 of labels, x2 the [1, 8192] row of margins, x3 and x4 the [128, 1] columns of
  the two additive terms, x5 and x6 the two [1, 1] scales.
-/
import proofs.«159326_j30880814858588_2_alg».proof.Proof.KPay0
import proofs.«159326_j30880814858588_2_alg».proof.Proof.LibUnitSpread

noncomputable section

namespace Cert.KernelIdeal.Loss

open Cert.KernelIdeal Cert.KernelIdeal.Gen Cert.KernelIdeal.Lanes
open Idealize.ShloMosaic Idealize.ShloMosaic.ValueIdx

variable (x0 x1 : FVec Ideal S128x8192 .f32) (x2 : FVec Ideal S1x8192 .f32) (x3 x4 : FVec Ideal S128x1 .f32)
  (x5 x6 : FVec Ideal S1x1 .f32) (r : Fin 128) (u : Fin 1)

/-- The blended shift at entry (r, k): margin · (label · scale₁ + (1 − label) · scale₂). -/
def shiftE (k : Fin 8192) : EReal :=
  x2 (ix2 (0 : Fin 1) k) * (x1 (ix2 r k) * x5 (ix2 (0 : Fin 1) (0 : Fin 1))
    + (1 - x1 (ix2 r k)) * x6 (ix2 (0 : Fin 1) (0 : Fin 1)))

/-- e^(score − shift) at entry (r, k). -/
def numE (k : Fin 8192) : EReal := Ideal.exp (Ideal.logistic (x0 (ix2 r k)) - shiftE x1 x2 x5 x6 r k)

theorem shift_entry (k : Fin 8192) : k1_pay4 (F := Ideal) x1 x2 x5 x6 (ix2 r k) = shiftE x1 x2 x5 x6 r k := by
  unfold k1_pay4 k1_pay2 shiftE
  show broadcastTo S128x8192 (shapeCast S1x8192 x2 Facts₀.shapeCasts_S1x8192_S1x8192) Facts₀.broadcasts_S1x8192_S128x8192 (ix2 r k)
      * (x1 (ix2 r k) * broadcastTo S128x8192 (shapeCast S1x1 x5 Facts₀.shapeCasts_S1x1_S1x1) Facts₀.broadcasts_S1x1_S128x8192 (ix2 r k)
        + (Ideal.ofBits .f32 0x3F800000#32 - x1 (ix2 r k))
          * broadcastTo S128x8192 (shapeCast S1x1 x6 Facts₀.shapeCasts_S1x1_S1x1) Facts₀.broadcasts_S1x1_S128x8192 (ix2 r k)) = _
  rw [shapeCast_self, shapeCast_self, shapeCast_self, broadcastTo_1b_ab_apply, Cert.Lib.broadcastTo_11_ab_apply,
    Cert.Lib.broadcastTo_11_ab_apply, Cert.Words.one]

theorem num_entry (k : Fin 8192) : k1_pay5 (F := Ideal) x0 x1 x2 x5 x6 (ix2 r k) = numE x0 x1 x2 x5 x6 r k := by
  unfold k1_pay5 k1_pay3 numE
  show Ideal.exp (Ideal.logistic (x0 (ix2 r k)) - k1_pay4 (F := Ideal) x1 x2 x5 x6 (ix2 r k)) = _
  rw [shift_entry]

/-- The first per-row sum at row r: over the columns with a positive label,
    log(num + additive term − score) − (score − shift). -/
theorem sum1_apply : k1_pay6 (F := Ideal) x0 x1 x2 x3 x5 x6 (ix2 r u)
    = ∑ k : Fin 8192, (if 0 < x1 (ix2 r k)
        then Ideal.log (numE x0 x1 x2 x5 x6 r k + x3 (ix2 r (0 : Fin 1)) - Ideal.logistic (x0 (ix2 r k)))
          - (Ideal.logistic (x0 (ix2 r k)) - shiftE x1 x2 x5 x6 r k)
        else 0) := by
  unfold k1_pay6
  refine (rowSum_apply _ r u).trans (Finset.sum_congr rfl fun k _ => ?_)
  refine (Cert.Lib.select_pos (x1 (ix2 r k)) _ _).trans ?_
  refine if_congr Iff.rfl ?_ Cert.Words.zero
  show Ideal.log (k1_pay5 (F := Ideal) x0 x1 x2 x5 x6 (ix2 r k)
        + broadcastTo S128x8192 (shapeCast S128x1 x3 Facts₀.shapeCasts_S128x1_S128x1) Facts₀.broadcasts_S128x1_S128x8192 (ix2 r k)
        - Ideal.logistic (x0 (ix2 r k)))
      - (Ideal.logistic (x0 (ix2 r k)) - k1_pay4 (F := Ideal) x1 x2 x5 x6 (ix2 r k)) = _
  rw [num_entry, shift_entry, shapeCast_self, Cert.Lib.broadcastTo_a1_ab_apply]

/-- The second per-row sum at row r: over the columns with 1 − label positive,
    0 − log(1 − num / (num + additive term − score)). -/
theorem sum2_apply :
    k1_pay1 (F := Ideal) (k1_pay2 (F := Ideal) x1) (k1_pay3 (F := Ideal) x0) (k1_pay5 (F := Ideal) x0 x1 x2 x5 x6)
        (k1_pay7 (F := Ideal) x4) (ix2 r u)
      = ∑ k : Fin 8192, (if 0 < 1 - x1 (ix2 r k)
        then 0 - Ideal.log (1 - Ideal.div (numE x0 x1 x2 x5 x6 r k)
          (numE x0 x1 x2 x5 x6 r k + x4 (ix2 r (0 : Fin 1)) - Ideal.logistic (x0 (ix2 r k))))
        else 0) := by
  unfold k1_pay1
  refine (rowSum_apply _ r u).trans (Finset.sum_congr rfl fun k _ => ?_)
  refine (Cert.Lib.select_pos (k1_pay2 (F := Ideal) x1 (ix2 r k)) _ _).trans ?_
  unfold k1_pay2 k1_pay3 k1_pay7
  show (if 0 < Ideal.ofBits .f32 0x3F800000#32 - x1 (ix2 r k)
      then Ideal.ofBits .f32 0x00000000#32 - Ideal.log (Ideal.ofBits .f32 0x3F800000#32
        - Ideal.div (k1_pay5 (F := Ideal) x0 x1 x2 x5 x6 (ix2 r k))
          (k1_pay5 (F := Ideal) x0 x1 x2 x5 x6 (ix2 r k)
            + broadcastTo S128x8192 (shapeCast S128x1 x4 Facts₀.shapeCasts_S128x1_S128x1) Facts₀.broadcasts_S128x1_S128x8192 (ix2 r k)
            - Ideal.logistic (x0 (ix2 r k))))
      else Ideal.ofBits .f32 0x00000000#32) = _
  rw [num_entry, shapeCast_self, Cert.Lib.broadcastTo_a1_ab_apply, Cert.Words.one, Cert.Words.zero]

end Cert.KernelIdeal.Loss

end
-- ==== Proof.KLoss.lean ====
/-
  The loss region's two output arrays, whole. Point t of the 32-point grid reads rows 128t … 128t+127 of the logits,
  the labels and the two columns of additive terms, the one row of margins and the two scalar scales, and writes rows
  128t … 128t+127 of each [4096, 1] output; the 32 blocks tile the 4096 rows. So each output array ends holding, at
  row i, the per-row loss sum of row i of the arrays the region finds.
-/
import proofs.«159326_j30880814858588_2_alg».proof.Proof.Gen.KernelIdeal.Frame
import proofs.«159326_j30880814858588_2_alg».proof.Proof.KPay1
import Idealize.ShloMosaic.Lib.Pipeline.Value

set_option maxRecDepth 16384

noncomputable section

namespace Cert.KernelIdeal.LossValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The row of a [4096, 1] index. -/
def rowOf (i : S4096x1.Idx) : Fin 4096 := ⟨(i 0).val, idx2_lt0 i⟩

/-- The printed index maps over the grid: a [128, ·] window's block row is the point, every block column is 0, and
    the margins' and the two scales' windows stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Entry x of the logits' block at point t is entry (128t + row, column) of the logits. -/
theorem iblk1_0_apply (c : Dev nD) (t : Fin cfg1.N) (x : S128x8192.Idx) (k : S4096x8192.Idx)
    (hk0 : (k 0).val = 128 * t.val + (x 0).val) (hk1 : (k 1).val = (x 1).val) :
    (iblk1 V c 0 t : Vec Ideal S128x8192 .f32) x = (V c main_arg0 : S4096x8192.Idx → EReal) k := by
  obtain ⟨e0, e1, -⟩ := idx1 t
  unfold iblk1
  rw [View.read_apply]
  show V c main_arg0 _ = V c main_arg0 _
  congr 1
  funext a
  apply Fin.ext
  match a with
  | ⟨0, _⟩ => show win1_0.index t 0 * 128 + 1 * (x 0).val = (k 0).val; rw [e0, hk0]; omega
  | ⟨1, _⟩ => show win1_0.index t 1 * 8192 + 1 * (x 1).val = (k 1).val; rw [e1, hk1]; omega

/-- Entry x of the labels' block at point t is entry (128t + row, column) of the labels. -/
theorem iblk1_1_apply (c : Dev nD) (t : Fin cfg1.N) (x : S128x8192.Idx) (k : S4096x8192.Idx)
    (hk0 : (k 0).val = 128 * t.val + (x 0).val) (hk1 : (k 1).val = (x 1).val) :
    (iblk1 V c 1 t : Vec Ideal S128x8192 .f32) x = (V c main_arg1 : S4096x8192.Idx → EReal) k := by
  obtain ⟨-, -, e0, e1, -⟩ := idx1 t
  unfold iblk1
  rw [View.read_apply]
  show V c main_arg1 _ = V c main_arg1 _
  congr 1
  funext a
  apply Fin.ext
  match a with
  | ⟨0, _⟩ => show win1_1.index t 0 * 128 + 1 * (x 0).val = (k 0).val; rw [e0, hk0]; omega
  | ⟨1, _⟩ => show win1_1.index t 1 * 8192 + 1 * (x 1).val = (k 1).val; rw [e1, hk1]; omega

/-- The margins' block at every point is the whole margins. -/
theorem iblk1_2_apply (c : Dev nD) (t : Fin cfg1.N) (x : S1x8192.Idx) :
    (iblk1 V c 2 t : Vec Ideal S1x8192 .f32) x = (V c main_v4 : S1x8192.Idx → EReal) x := by
  obtain ⟨-, -, -, -, e0, e1, -⟩ := idx1 t
  unfold iblk1
  rw [View.read_apply]
  show V c main_v4 _ = V c main_v4 _
  congr 1
  funext a
  apply Fin.ext
  match a with
  | ⟨0, _⟩ => show win1_2.index t 0 * 1 + 1 * (x 0).val = (x 0).val; rw [e0]; omega
  | ⟨1, _⟩ => show win1_2.index t 1 * 8192 + 1 * (x 1).val = (x 1).val; rw [e1]; omega

/-- Entry x of the first additive terms' block at point t is row 128t + row of the first additive terms. -/
theorem iblk1_3_apply (c : Dev nD) (t : Fin cfg1.N) (x : S128x1.Idx) (k : S4096x1.Idx)
    (hk0 : (k 0).val = 128 * t.val + (x 0).val) (hk1 : (k 1).val = (x 1).val) :
    (iblk1 V c 3 t : Vec Ideal S128x1 .f32) x = (V c main_v17 : S4096x1.Idx → EReal) k := by
  obtain ⟨-, -, -, -, -, -, e0, e1, -⟩ := idx1 t
  unfold iblk1
  rw [View.read_apply]
  show V c main_v17 _ = V c main_v17 _
  congr 1
  funext a
  apply Fin.ext
  match a with
  | ⟨0, _⟩ => show win1_3.index t 0 * 128 + 1 * (x 0).val = (k 0).val; rw [e0, hk0]; omega
  | ⟨1, _⟩ => show win1_3.index t 1 * 1 + 1 * (x 1).val = (k 1).val; rw [e1, hk1]; omega

/-- Entry x of the second additive terms' block at point t is row 128t + row of the second additive terms. -/
theorem iblk1_4_apply (c : Dev nD) (t : Fin cfg1.N) (x : S128x1.Idx) (k : S4096x1.Idx)
    (hk0 : (k 0).val = 128 * t.val + (x 0).val) (hk1 : (k 1).val = (x 1).val) :
    (iblk1 V c 4 t : Vec Ideal S128x1 .f32) x = (V c main_v19 : S4096x1.Idx → EReal) k := by
  obtain ⟨-, -, -, -, -, -, -, -, e0, e1, -⟩ := idx1 t
  unfold iblk1
  rw [View.read_apply]
  show V c main_v19 _ = V c main_v19 _
  congr 1
  funext a
  apply Fin.ext
  match a with
  | ⟨0, _⟩ => show win1_4.index t 0 * 128 + 1 * (x 0).val = (k 0).val; rw [e0, hk0]; omega
  | ⟨1, _⟩ => show win1_4.index t 1 * 1 + 1 * (x 1).val = (k 1).val; rw [e1, hk1]; omega

/-- The first scale' block at every point is the whole first scale. -/
theorem iblk1_5_apply (c : Dev nD) (t : Fin cfg1.N) (x : S1x1.Idx) :
    (iblk1 V c 5 t : Vec Ideal S1x1 .f32) x = (V c main_v13 : S1x1.Idx → EReal) x := by
  obtain ⟨-, -, -, -, -, -, -, -, -, -, e0, e1, -⟩ := idx1 t
  unfold iblk1
  rw [View.read_apply]
  show V c main_v13 _ = V c main_v13 _
  congr 1
  funext a
  apply Fin.ext
  match a with
  | ⟨0, _⟩ => show win1_5.index t 0 * 1 + 1 * (x 0).val = (x 0).val; rw [e0]; omega
  | ⟨1, _⟩ => show win1_5.index t 1 * 1 + 1 * (x 1).val = (x 1).val; rw [e1]; omega

/-- The second scale' block at every point is the whole second scale. -/
theorem iblk1_6_apply (c : Dev nD) (t : Fin cfg1.N) (x : S1x1.Idx) :
    (iblk1 V c 6 t : Vec Ideal S1x1 .f32) x = (V c main_v15 : S1x1.Idx → EReal) x := by
  obtain ⟨-, -, -, -, -, -, -, -, -, -, -, -, e0, e1, -⟩ := idx1 t
  unfold iblk1
  rw [View.read_apply]
  show V c main_v15 _ = V c main_v15 _
  congr 1
  funext a
  apply Fin.ext
  match a with
  | ⟨0, _⟩ => show win1_6.index t 0 * 1 + 1 * (x 0).val = (x 0).val; rw [e0]; omega
  | ⟨1, _⟩ => show win1_6.index t 1 * 1 + 1 * (x 1).val = (x 1).val; rw [e1]; omega

/-- The blended shift at entry (i, k) of the arrays: margin · (label · scale₁ + (1 − label) · scale₂). -/
def shiftA (a1 : S4096x8192.Idx → EReal) (a4 : S1x8192.Idx → EReal) (s1 s2 : S1x1.Idx → EReal) (i : Fin 4096)
    (k : Fin 8192) : EReal :=
  a4 (ix2 (0 : Fin 1) k) * (a1 (ix2 i k) * s1 (ix2 (0 : Fin 1) (0 : Fin 1))
    + (1 - a1 (ix2 i k)) * s2 (ix2 (0 : Fin 1) (0 : Fin 1)))

/-- e^(score − shift) at entry (i, k). -/
def numA (a0 a1 : S4096x8192.Idx → EReal) (a4 : S1x8192.Idx → EReal) (s1 s2 : S1x1.Idx → EReal) (i : Fin 4096)
    (k : Fin 8192) : EReal :=
  Ideal.exp (Ideal.logistic (a0 (ix2 i k)) - shiftA a1 a4 s1 s2 i k)

/-- The first half's per-row sums, as a [4096, 1] column; A is the column of its additive terms. -/
def colSum1 (a0 a1 : S4096x8192.Idx → EReal) (a4 : S1x8192.Idx → EReal) (A : S4096x1.Idx → EReal)
    (s1 s2 : S1x1.Idx → EReal) : S4096x1.Idx → EReal :=
  fun i => ∑ k : Fin 8192, (if 0 < a1 (ix2 (rowOf i) k)
    then Ideal.log (numA a0 a1 a4 s1 s2 (rowOf i) k + A (ix2 (rowOf i) (0 : Fin 1)) - Ideal.logistic (a0 (ix2 (rowOf i) k)))
      - (Ideal.logistic (a0 (ix2 (rowOf i) k)) - shiftA a1 a4 s1 s2 (rowOf i) k)
    else 0)

/-- The second half's per-row sums, as a [4096, 1] column; A is the column of its additive terms. -/
def colSum2 (a0 a1 : S4096x8192.Idx → EReal) (a4 : S1x8192.Idx → EReal) (A : S4096x1.Idx → EReal)
    (s1 s2 : S1x1.Idx → EReal) : S4096x1.Idx → EReal :=
  fun i => ∑ k : Fin 8192, (if 0 < 1 - a1 (ix2 (rowOf i) k)
    then 0 - Ideal.log (1 - Ideal.div (numA a0 a1 a4 s1 s2 (rowOf i) k)
      (numA a0 a1 a4 s1 s2 (rowOf i) k + A (ix2 (rowOf i) (0 : Fin 1)) - Ideal.logistic (a0 (ix2 (rowOf i) k))))
    else 0)

/-- Row y of block t of the first output sits at row 128t + y of the array. -/
theorem emb1_7_row (t : Fin cfg1.N) (y : S128x1.Idx) :
    ((((cfg1.win 7).blk t).view.emb y) 0).val = 128 * t.val + (y 0).val := by
  obtain ⟨-, -, -, -, -, -, -, -, -, -, -, -, -, -, e0, -, -⟩ := idx1 t
  show win1_7.index t 0 * 128 + 1 * (y 0).val = _
  rw [e0]; omega

/-- What point t writes back to the first output is block t of colSum1 of the arrays the region finds. -/
theorem flushed1_7 (c : Dev nD) (t : Fin cfg1.N) :
    (dat1 V c).flushed 7 t = ((cfg1.win 7).blk t).view.read (Elt Ideal) (colSum1 (V c main_arg0) (V c main_arg1) (V c main_v4) (V c main_v17) (V c main_v13) (V c main_v15)) := by
  show (cfg1.win 7).cut (grid1.coords t) ((dat1 V c).after 7 t) = _
  rw [after1_7]
  unfold out1_7
  rw [View.canon_unit_zero hz]
  simp only [View.ld_unit_zero (S := S128x8192) hz, View.ld_unit_zero (S := S1x8192) hz,
    View.ld_unit_zero (S := S128x1) hz, View.ld_unit_zero (S := S1x1) hz]
  funext y
  obtain ⟨r, u, rfl⟩ : ∃ (r : Fin 128) (u : Fin 1), y = ix2 r u := ⟨y 0, y 1, eq_ix2 y⟩
  refine (Loss.sum1_apply (iblk1 V c 0 t) (iblk1 V c 1 t) (iblk1 V c 2 t) (iblk1 V c 3 t) (iblk1 V c 5 t) (iblk1 V c 6 t) r u).trans ?_
  rw [View.read_apply]
  unfold colSum1
  have hr := emb1_7_row t (ix2 r u)
  refine Finset.sum_congr rfl fun k _ => ?_
  have h0 := iblk1_0_apply V c t (ix2 r k) (ix2 (rowOf (((cfg1.win 7).blk t).view.emb (ix2 r u))) k) hr rfl
  have h1 := iblk1_1_apply V c t (ix2 r k) (ix2 (rowOf (((cfg1.win 7).blk t).view.emb (ix2 r u))) k) hr rfl
  have h2 := iblk1_2_apply V c t (ix2 (0 : Fin 1) k)
  have h3 := iblk1_3_apply V c t (ix2 r (0 : Fin 1)) (ix2 (rowOf (((cfg1.win 7).blk t).view.emb (ix2 r u))) (0 : Fin 1)) hr rfl
  have h5 := iblk1_5_apply V c t (ix2 (0 : Fin 1) (0 : Fin 1))
  have h6 := iblk1_6_apply V c t (ix2 (0 : Fin 1) (0 : Fin 1))
  unfold Loss.numE Loss.shiftE numA shiftA
  rw [h0, h1, h2, h3, h5, h6]

/-- Every row of the first output lies in the block of the point row / 128. -/
theorem cover1_7 (i : S4096x1.Idx) :
    ∃ t : Fin cfg1.N, (cfg1.win 7).flush t = true ∧ i ∈ ((cfg1.win 7).blk t).view.set := by
  have hi0 : (i 0).val < 4096 := idx2_lt0 i
  have hi1 : (i 1).val < 1 := idx2_lt1 i
  have hN : cfg1.N = 32 := N_1
  have ht : (i 0).val / 128 < cfg1.N := by rw [hN]; omega
  refine ⟨⟨(i 0).val / 128, ht⟩, flush1_7 _, ?_⟩
  obtain ⟨-, -, -, -, -, -, -, -, -, -, -, -, -, -, e0, e1, -⟩ := idx1 ⟨(i 0).val / 128, ht⟩
  show i ∈ ((View.whole main_v20_0).slice (win1_7.rect ⟨(i 0).val / 128, ht⟩)).set
  rw [View.set_slice_whole, Rect.mem_set_unit]
  intro a
  match a with
  | ⟨0, _⟩ =>
    show win1_7.index ⟨(i 0).val / 128, ht⟩ 0 * 128 ≤ (i 0).val ∧ (i 0).val < win1_7.index ⟨(i 0).val / 128, ht⟩ 0 * 128 + 128
    rw [e0]; show (i 0).val / 128 * 128 ≤ (i 0).val ∧ (i 0).val < (i 0).val / 128 * 128 + 128; omega
  | ⟨1, _⟩ =>
    show win1_7.index ⟨(i 0).val / 128, ht⟩ 1 * 1 ≤ (i 1).val ∧ (i 1).val < win1_7.index ⟨(i 0).val / 128, ht⟩ 1 * 1 + 1
    rw [e1]; omega

/-- The first output array after the region. -/
theorem final1_7 (c : Dev nD) : (dat1 V c).arrAt 7 cfg1.N = colSum1 (V c main_arg0) (V c main_arg1) (V c main_v4) (V c main_v17) (V c main_v13) (V c main_v15) :=
  (dat1 V c).arrAt_eq_of_cover 7 _ (fun t _ => flushed1_7 V c t) cover1_7

/-- Row y of block t of the second output sits at row 128t + y of the array. -/
theorem emb1_8_row (t : Fin cfg1.N) (y : S128x1.Idx) :
    ((((cfg1.win 8).blk t).view.emb y) 0).val = 128 * t.val + (y 0).val := by
  obtain ⟨-, -, -, -, -, -, -, -, -, -, -, -, -, -, -, -, e0, -⟩ := idx1 t
  show win1_8.index t 0 * 128 + 1 * (y 0).val = _
  rw [e0]; omega

/-- What point t writes back to the second output is block t of colSum2 of the arrays the region finds. -/
theorem flushed1_8 (c : Dev nD) (t : Fin cfg1.N) :
    (dat1 V c).flushed 8 t = ((cfg1.win 8).blk t).view.read (Elt Ideal) (colSum2 (V c main_arg0) (V c main_arg1) (V c main_v4) (V c main_v19) (V c main_v13) (V c main_v15)) := by
  show (cfg1.win 8).cut (grid1.coords t) ((dat1 V c).after 8 t) = _
  rw [after1_8]
  unfold out1_8
  rw [View.canon_unit_zero hz]
  simp only [View.ld_unit_zero (S := S128x8192) hz, View.ld_unit_zero (S := S1x8192) hz,
    View.ld_unit_zero (S := S128x1) hz, View.ld_unit_zero (S := S1x1) hz]
  funext y
  obtain ⟨r, u, rfl⟩ : ∃ (r : Fin 128) (u : Fin 1), y = ix2 r u := ⟨y 0, y 1, eq_ix2 y⟩
  refine (Loss.sum2_apply (iblk1 V c 0 t) (iblk1 V c 1 t) (iblk1 V c 2 t) (iblk1 V c 4 t) (iblk1 V c 5 t) (iblk1 V c 6 t) r u).trans ?_
  rw [View.read_apply]
  unfold colSum2
  have hr := emb1_8_row t (ix2 r u)
  refine Finset.sum_congr rfl fun k _ => ?_
  have h0 := iblk1_0_apply V c t (ix2 r k) (ix2 (rowOf (((cfg1.win 8).blk t).view.emb (ix2 r u))) k) hr rfl
  have h1 := iblk1_1_apply V c t (ix2 r k) (ix2 (rowOf (((cfg1.win 8).blk t).view.emb (ix2 r u))) k) hr rfl
  have h2 := iblk1_2_apply V c t (ix2 (0 : Fin 1) k)
  have h3 := iblk1_4_apply V c t (ix2 r (0 : Fin 1)) (ix2 (rowOf (((cfg1.win 8).blk t).view.emb (ix2 r u))) (0 : Fin 1)) hr rfl
  have h5 := iblk1_5_apply V c t (ix2 (0 : Fin 1) (0 : Fin 1))
  have h6 := iblk1_6_apply V c t (ix2 (0 : Fin 1) (0 : Fin 1))
  unfold Loss.numE Loss.shiftE numA shiftA
  rw [h0, h1, h2, h3, h5, h6]

/-- Every row of the second output lies in the block of the point row / 128. -/
theorem cover1_8 (i : S4096x1.Idx) :
    ∃ t : Fin cfg1.N, (cfg1.win 8).flush t = true ∧ i ∈ ((cfg1.win 8).blk t).view.set := by
  have hi0 : (i 0).val < 4096 := idx2_lt0 i
  have hi1 : (i 1).val < 1 := idx2_lt1 i
  have hN : cfg1.N = 32 := N_1
  have ht : (i 0).val / 128 < cfg1.N := by rw [hN]; omega
  refine ⟨⟨(i 0).val / 128, ht⟩, flush1_8 _, ?_⟩
  obtain ⟨-, -, -, -, -, -, -, -, -, -, -, -, -, -, -, -, e0, e1⟩ := idx1 ⟨(i 0).val / 128, ht⟩
  show i ∈ ((View.whole main_v20_1).slice (win1_8.rect ⟨(i 0).val / 128, ht⟩)).set
  rw [View.set_slice_whole, Rect.mem_set_unit]
  intro a
  match a with
  | ⟨0, _⟩ =>
    show win1_8.index ⟨(i 0).val / 128, ht⟩ 0 * 128 ≤ (i 0).val ∧ (i 0).val < win1_8.index ⟨(i 0).val / 128, ht⟩ 0 * 128 + 128
    rw [e0]; show (i 0).val / 128 * 128 ≤ (i 0).val ∧ (i 0).val < (i 0).val / 128 * 128 + 128; omega
  | ⟨1, _⟩ =>
    show win1_8.index ⟨(i 0).val / 128, ht⟩ 1 * 1 ≤ (i 1).val ∧ (i 1).val < win1_8.index ⟨(i 0).val / 128, ht⟩ 1 * 1 + 1
    rw [e1]; omega

/-- The second output array after the region. -/
theorem final1_8 (c : Dev nD) : (dat1 V c).arrAt 8 cfg1.N = colSum2 (V c main_arg0) (V c main_arg1) (V c main_v4) (V c main_v19) (V c main_v13) (V c main_v15) :=
  (dat1 V c).arrAt_eq_of_cover 8 _ (fun t _ => flushed1_8 V c t) cover1_8

end Cert.KernelIdeal.LossValue

end
-- ==== Proof.Spec.lean ====
/-
  A class-balanced margin loss over a [rows, columns] batch, written two ways over the extended reals.

  Inputs: scores p i j (a logistic, so a positive real), labels l i j (0 or 1), per-column margins v j ≥ 0.
  One way (twoPass) first takes per-row statistics — the row sums of p·l and of p, the row maxima of the margins selected
  by the label's sign, the row counts — folds them to global scalars, and then evaluates both halves of the loss with ONE
  blended shift v·(l·s₁ + (1−l)·s₂); its first half uses log(den) − (p − shift) for −log(num/den).
  The other way (direct) evaluates each half on its own: mask m = l for the first, m = 1 − l for the second, shift
  (v·m)·(½ / max(v·m)), denominator exp(p − shift) + (row sum of p·(1−m) + total of p·m) − p, and −log of the quotient.
  For labels in {0,1} the two agree: a 0/1 factor selects, the row and total sums regroup, and at a positive position
  the denominator is at least the numerator e^y > 0, so −log(e^y/den) = log den − y.
-/
import Idealize.ShloMosaic.PureOps.Ideal

noncomputable section

namespace Cert.Margin

open Idealize.ShloMosaic

variable {ι κ : Type} [Fintype ι] [Fintype κ]

section Forms
variable (p l : ι → κ → EReal) (v : κ → EReal) (h N : EReal)

/-! ### The statistics pass and what the second pass makes of it -/

/-- Row sum of p·l. -/
def rowPos (i : ι) : EReal := ∑ j, p i j * l i j
/-- Row sum of p·(1−l), taken as (row sum of p) − (row sum of p·l). -/
def rowNeg (i : ι) : EReal := (∑ j, p i j) - rowPos p l i
/-- The largest margin at a positive label (0 stands at the others). -/
def topPos : EReal := ⨆ i, ⨆ j, (if 0 < l i j then v j else 0)
/-- The largest margin at a non-positive label (0 stands at the positive ones). -/
def topNeg : EReal := ⨆ i, ⨆ j, (if 0 < l i j then 0 else v j)
/-- The blended shift: v·(l·s₁ + (1−l)·s₂) with sₖ = h / topₖ. -/
def shift (i : ι) (j : κ) : EReal :=
  v j * (l i j * Ideal.div h (topPos l v) + (1 - l i j) * Ideal.div h (topNeg l v))
/-- e^(p − shift). -/
def num (i : ι) (j : κ) : EReal := Ideal.exp (p i j - shift l v h i j)
/-- The additive term of the first half's denominator: row sum of p·(1−l) plus the total of p·l. -/
def addPos (i : ι) : EReal := rowNeg p l i + ∑ i', rowPos p l i'
/-- The additive term of the second half's denominator: row sum of p·l plus the total of p·(1−l). -/
def addNeg (i : ι) : EReal := rowPos p l i + ∑ i', rowNeg p l i'

/-- The two-pass value. -/
def twoPass : EReal :=
  Ideal.div
    (∑ i, ∑ j, (if 0 < l i j
      then Ideal.log (num p l v h i j + addPos p l i - p i j) - (p i j - shift l v h i j) else 0))
    (∑ i, ∑ j, l i j)
  + Ideal.div
    (∑ i, ∑ j, (if 0 < 1 - l i j
      then 0 - Ideal.log (1 - Ideal.div (num p l v h i j) (num p l v h i j + addNeg p l i - p i j)) else 0))
    (N - ∑ i, ∑ j, l i j)

/-! ### Each half on its own, for a mask m -/

/-- e^(p − (v·m)·(h / max(v·m))). -/
def numOf (m : ι → κ → EReal) (i : ι) (j : κ) : EReal :=
  Ideal.exp (p i j - (v j * m i j) * Ideal.div h (⨆ i', ⨆ j', v j' * m i' j'))
/-- Row sum of p·(1−m) plus the total of p·m. -/
def addOf (m : ι → κ → EReal) (i : ι) : EReal := (∑ j, p i j * (1 - m i j)) + ∑ i', ∑ j', p i' j' * m i' j'
/-- num / (num + add − p). -/
def quotOf (m : ι → κ → EReal) (i : ι) (j : κ) : EReal :=
  Ideal.div (numOf p v h m i j) (numOf p v h m i j + addOf p m i - p i j)

/-- The direct value. -/
def direct : EReal :=
  Ideal.div
    (∑ i, ∑ j, (if 0 < l i j then -(Ideal.log (quotOf p v h l i j)) else 0))
    (∑ i, ∑ j, l i j)
  + Ideal.div
    (∑ i, ∑ j, (if 0 < 1 - l i j then -(Ideal.log (1 - quotOf p v h (fun i j => 1 - l i j) i j)) else 0))
    (∑ i, ∑ j, (1 - l i j))

end Forms

end Cert.Margin

end
-- ==== Proof.Inputs.lean ====
/-
  The loss's three inputs as functions of the argument arrays: the score of an entry is the logistic of its logit, its
  label is the label array's entry, and a column's margin is the reciprocal fourth root of its class count,
  1 / count^(1/4), the exponent spelled by the float word of 0.25.
-/
import proofs.«159326_j30880814858588_2_alg».proof.Proof.Spec
import proofs.«159326_j30880814858588_2_alg».proof.Proof.Words
import Idealize.ShloMosaic.Lib.ValueIdx

noncomputable section

namespace Cert.Margin

open Idealize.ShloMosaic Idealize.ShloMosaic.ValueIdx

/-- The score p i j: the logistic of the logit at (i, j). -/
def score (x0 : (⟨2, ![4096, 8192]⟩ : Shape).Idx → EReal) : Fin 4096 → Fin 8192 → EReal :=
  fun i j => Ideal.logistic (x0 (ix2 i j))

/-- The label l i j. -/
def label (x1 : (⟨2, ![4096, 8192]⟩ : Shape).Idx → EReal) : Fin 4096 → Fin 8192 → EReal :=
  fun i j => x1 (ix2 i j)

/-- The margin v j = 1 / count_j^(1/4). -/
def margin (x2 : (⟨1, ![8192]⟩ : Shape).Idx → EReal) : Fin 8192 → EReal :=
  fun j => Ideal.div 1 (Ideal.pow (x2 (ix1 j)) (Ideal.ofBits .f32 0x3E800000#32))

/-- The logistic is 1 / (1 + e^(−x)) as the host spells it. -/
theorem logistic_spelled (x : EReal) : Ideal.div 1 (1 + Ideal.exp (-x)) = Ideal.logistic x := rfl

end Cert.Margin

end
-- ==== Proof.KForm.lean ====
/-
  The kernel's host operations between and after its two regions, as functions of the arrays the regions see, and
  what they compute: the total sums and maxima of the statistics columns give the two additive-term columns, the two
  scales and the two counts; the loss region's two columns, summed and divided by the counts, give the two-pass form
  of the loss at the score, label and margin functions. a0 is the logits array, a1 the labels, a4 the [1, 8192] row
  of margins.
-/
import proofs.«159326_j30880814858588_2_alg».proof.Proof.KStats
import proofs.«159326_j30880814858588_2_alg».proof.Proof.KLoss
import proofs.«159326_j30880814858588_2_alg».proof.Proof.Inputs
import Idealize.ShloMosaic.Lib.IdealHost
import Idealize.ShloMosaic.PureOps.Reduce
import Idealize.ShloMosaic.PureOps.Ideal.Laws

noncomputable section

namespace Cert.KernelIdeal.Form

open Cert.KernelIdeal Cert.KernelIdeal.Gen
open Idealize.ShloMosaic Idealize.ShloMosaic.ValueIdx Cert.Margin
open Cert.KernelIdeal.StatsValue (colPos colNeg colMaxPos colMaxNeg colCount)
open Cert.KernelIdeal.LossValue (colSum1 colSum2 shiftA numA)

/-- The host's total sum of a [4096, 1] column from 0 is the sum of its 4096 entries. -/
theorem total_sum (f : S4096x1.Idx → EReal) (k : S_.Idx) :
    Host.reduceAdd (F := Ideal) (φ := .f32) f (constant (F := Ideal) S_ .f32 0x00000000#32)
        Facts₀.reducesTo_S4096x1_S_d0_1 Facts₀.h_S_ k
      = ∑ i : Fin 4096, f (ix2 i (0 : Fin 1)) := by
  rw [hostReduceAdd_apply, Ideal.hostReduceAdd_total _ (fun b => b.elim0)]
  show Ideal.ofBits .f32 0x00000000#32 + _ = _
  rw [Cert.Words.zero, zero_add, sum_idx2]
  exact Finset.sum_congr rfl fun i _ => Fin.sum_univ_one _

/-- The host's total maximum of a [4096, 1] column from −∞ is the supremum of its 4096 entries. -/
theorem total_max (f : S4096x1.Idx → EReal) (k : S_.Idx) :
    Host.reduce (FloatOps.maximumf (F := Ideal) (φ := .f32)) f (constant (F := Ideal) S_ .f32 0xFF800000#32)
        Facts₀.reducesTo_S4096x1_S_d0_1 Facts₀.h_S_ k
      = ⨆ i : Fin 4096, f (ix2 i (0 : Fin 1)) := by
  rw [Host.reduce_eq_fold, Finset.filter_true_of_mem (fun j _ => funext fun d => d.elim0)]
  show Finset.univ.fold (FloatOps.maximumf (F := Ideal) (φ := .f32)) (Ideal.ofBits .f32 0xFF800000#32) f = _
  rw [Cert.Words.negInf]
  have hsup : Finset.univ.fold (FloatOps.maximumf (F := Ideal) (φ := .f32)) ⊥ f = Finset.univ.sup f := rfl
  rw [hsup, Finset.sup_univ_eq_iSup, ← Equiv.iSup_comp (idxEquiv2 (n0 := 4096) (n1 := 1)).symm, iSup_prod]
  exact iSup_congr fun i => (iSup_unique _).trans rfl

/-- The host's quotient of two arrays, read at an index, is the quotient of the entries. -/
theorem hostDivf_at {s : Shape} (a b : FVec Ideal s .f32) (i : s.Idx) :
    Host.divf (F := Ideal) (φ := .f32) a b i = Ideal.div (a i) (b i) := rfl

/-- A scalar recast as a [1, 1] array reads the scalar. -/
theorem scalar_cast (x : S_.Idx → EReal) (j : S1x1.Idx) :
    shapeCast S1x1 x Facts₀.shapeCasts_S_S1x1 j = x ix0 := by
  unfold shapeCast
  exact congrArg x (funext fun d => d.elim0)

section Stages
variable (a0 a1 : S4096x8192.Idx → EReal) (a4 : S1x8192.Idx → EReal)

/-- The first additive-term column: (row sums of score·(1−label)) + (total of score·label). -/
def add1 : S4096x1.Idx → EReal :=
  addf (F := Ideal) (φ := .f32) (colNeg a0 a1) (broadcastInDim S4096x1 ![] Facts₀.bcast_S_S4096x1
    (Host.reduceAdd (F := Ideal) (φ := .f32) (colPos a0 a1) (constant (F := Ideal) S_ .f32 0x00000000#32)
      Facts₀.reducesTo_S4096x1_S_d0_1 Facts₀.h_S_))

/-- The second additive-term column: (row sums of score·label) + (total of score·(1−label)). -/
def add2 : S4096x1.Idx → EReal :=
  addf (F := Ideal) (φ := .f32) (colPos a0 a1) (broadcastInDim S4096x1 ![] Facts₀.bcast_S_S4096x1
    (Host.reduceAdd (F := Ideal) (φ := .f32) (colNeg a0 a1) (constant (F := Ideal) S_ .f32 0x00000000#32)
      Facts₀.reducesTo_S4096x1_S_d0_1 Facts₀.h_S_))

/-- The first scale, ½ / (largest margin at a positive label), as a [1, 1] array. -/
def sc1 : S1x1.Idx → EReal :=
  shapeCast S1x1 (Host.divf (F := Ideal) (φ := .f32) (constant (F := Ideal) S_ .f32 0x3F000000#32)
    (Host.reduce (FloatOps.maximumf (F := Ideal) (φ := .f32)) (colMaxPos a1 a4)
      (constant (F := Ideal) S_ .f32 0xFF800000#32) Facts₀.reducesTo_S4096x1_S_d0_1 Facts₀.h_S_)) Facts₀.shapeCasts_S_S1x1

/-- The second scale, ½ / (largest margin at a non-positive label), as a [1, 1] array. -/
def sc2 : S1x1.Idx → EReal :=
  shapeCast S1x1 (Host.divf (F := Ideal) (φ := .f32) (constant (F := Ideal) S_ .f32 0x3F000000#32)
    (Host.reduce (FloatOps.maximumf (F := Ideal) (φ := .f32)) (colMaxNeg a1 a4)
      (constant (F := Ideal) S_ .f32 0xFF800000#32) Facts₀.reducesTo_S4096x1_S_d0_1 Facts₀.h_S_)) Facts₀.shapeCasts_S_S1x1

/-- The total of the labels. -/
def cnt : S_.Idx → EReal :=
  Host.reduceAdd (F := Ideal) (φ := .f32) (colCount a1) (constant (F := Ideal) S_ .f32 0x00000000#32)
    Facts₀.reducesTo_S4096x1_S_d0_1 Facts₀.h_S_

/-- The batch size minus the total of the labels. -/
def ncnt : S_.Idx → EReal :=
  subf (F := Ideal) (φ := .f32) (constant (F := Ideal) S_ .f32 0x4C000000#32) (cnt a1)

/-- The result: the two columns of per-row loss sums, totalled and divided by the two counts, added. -/
def result : S_.Idx → EReal :=
  addf (F := Ideal) (φ := .f32)
    (Host.divf (F := Ideal) (φ := .f32)
      (Host.reduceAdd (F := Ideal) (φ := .f32) (colSum1 a0 a1 a4 (add1 a0 a1) (sc1 a1 a4) (sc2 a1 a4))
        (constant (F := Ideal) S_ .f32 0x00000000#32) Facts₀.reducesTo_S4096x1_S_d0_1 Facts₀.h_S_)
      (cnt a1))
    (Host.divf (F := Ideal) (φ := .f32)
      (Host.reduceAdd (F := Ideal) (φ := .f32) (colSum2 a0 a1 a4 (add2 a0 a1) (sc1 a1 a4) (sc2 a1 a4))
        (constant (F := Ideal) S_ .f32 0x00000000#32) Facts₀.reducesTo_S4096x1_S_d0_1 Facts₀.h_S_)
      (ncnt a1))

variable (vm : Fin 8192 → EReal) (h4 : ∀ k, a4 (ix2 (0 : Fin 1) k) = vm k)

theorem cnt_eq (k : S_.Idx) : cnt a1 k = ∑ i, ∑ j, label a1 i j := by
  unfold cnt
  rw [total_sum]
  rfl

theorem add1_eq (i : Fin 4096) : add1 a0 a1 (ix2 i (0 : Fin 1)) = addPos (score a0) (label a1) i := by
  unfold add1 addPos
  refine congrArg₂ (· + ·) rfl ?_
  exact total_sum (colPos a0 a1) _

theorem add2_eq (i : Fin 4096) : add2 a0 a1 (ix2 i (0 : Fin 1)) = addNeg (score a0) (label a1) i := by
  unfold add2 addNeg
  refine congrArg₂ (· + ·) rfl ?_
  exact total_sum (colNeg a0 a1) _

include h4 in
theorem sc1_eq : sc1 a1 a4 (ix2 (0 : Fin 1) (0 : Fin 1))
    = Ideal.div (Ideal.ofBits .f32 0x3F000000#32) (topPos (label a1) vm) := by
  unfold sc1
  rw [scalar_cast, hostDivf_at, constant_apply, total_max]
  unfold topPos colMaxPos
  refine congrArg _ (iSup_congr fun i => iSup_congr fun k => ?_)
  rw [h4]
  rfl

include h4 in
theorem sc2_eq : sc2 a1 a4 (ix2 (0 : Fin 1) (0 : Fin 1))
    = Ideal.div (Ideal.ofBits .f32 0x3F000000#32) (topNeg (label a1) vm) := by
  unfold sc2
  rw [scalar_cast, hostDivf_at, constant_apply, total_max]
  unfold topNeg colMaxNeg
  refine congrArg _ (iSup_congr fun i => iSup_congr fun k => ?_)
  rw [h4]
  rfl

include h4 in
theorem shift_eq (i : Fin 4096) (k : Fin 8192) :
    shiftA a1 a4 (sc1 a1 a4) (sc2 a1 a4) i k = shift (label a1) vm (Ideal.ofBits .f32 0x3F000000#32) i k := by
  unfold shiftA shift
  rw [sc1_eq a1 a4 vm h4, sc2_eq a1 a4 vm h4, h4]
  rfl

include h4 in
theorem num_eq (i : Fin 4096) (k : Fin 8192) :
    numA a0 a1 a4 (sc1 a1 a4) (sc2 a1 a4) i k
      = num (score a0) (label a1) vm (Ideal.ofBits .f32 0x3F000000#32) i k := by
  unfold numA num
  rw [shift_eq a1 a4 vm h4]
  rfl

include h4 in
theorem sum1_eq (i : Fin 4096) :
    colSum1 a0 a1 a4 (add1 a0 a1) (sc1 a1 a4) (sc2 a1 a4) (ix2 i (0 : Fin 1))
      = ∑ j, (if 0 < label a1 i j
          then Ideal.log (num (score a0) (label a1) vm (Ideal.ofBits .f32 0x3F000000#32) i j
              + addPos (score a0) (label a1) i - score a0 i j)
            - (score a0 i j - shift (label a1) vm (Ideal.ofBits .f32 0x3F000000#32) i j)
          else 0) := by
  unfold colSum1
  refine Finset.sum_congr rfl fun k _ => ?_
  show (if 0 < a1 (ix2 i k)
      then Ideal.log (numA a0 a1 a4 (sc1 a1 a4) (sc2 a1 a4) i k + add1 a0 a1 (ix2 i (0 : Fin 1))
          - Ideal.logistic (a0 (ix2 i k)))
        - (Ideal.logistic (a0 (ix2 i k)) - shiftA a1 a4 (sc1 a1 a4) (sc2 a1 a4) i k)
      else 0) = _
  rw [num_eq a0 a1 a4 vm h4, shift_eq a1 a4 vm h4, add1_eq]
  rfl

include h4 in
theorem sum2_eq (i : Fin 4096) :
    colSum2 a0 a1 a4 (add2 a0 a1) (sc1 a1 a4) (sc2 a1 a4) (ix2 i (0 : Fin 1))
      = ∑ j, (if 0 < 1 - label a1 i j
          then 0 - Ideal.log (1 - Ideal.div (num (score a0) (label a1) vm (Ideal.ofBits .f32 0x3F000000#32) i j)
            (num (score a0) (label a1) vm (Ideal.ofBits .f32 0x3F000000#32) i j
              + addNeg (score a0) (label a1) i - score a0 i j))
          else 0) := by
  unfold colSum2
  refine Finset.sum_congr rfl fun k _ => ?_
  show (if 0 < 1 - a1 (ix2 i k)
      then 0 - Ideal.log (1 - Ideal.div (numA a0 a1 a4 (sc1 a1 a4) (sc2 a1 a4) i k)
        (numA a0 a1 a4 (sc1 a1 a4) (sc2 a1 a4) i k + add2 a0 a1 (ix2 i (0 : Fin 1))
          - Ideal.logistic (a0 (ix2 i k))))
      else 0) = _
  rw [num_eq a0 a1 a4 vm h4, add2_eq]
  rfl

include h4 in
/-- The host operations' composed result is the two-pass form of the loss. -/
theorem result_eq (k : S_.Idx) :
    result a0 a1 a4 k
      = twoPass (score a0) (label a1) vm (Ideal.ofBits .f32 0x3F000000#32) (Ideal.ofBits .f32 0x4C000000#32) := by
  unfold result twoPass
  rw [addf_apply, hostDivf_at, hostDivf_at, total_sum, total_sum]
  have hn : ncnt a1 k = Ideal.ofBits .f32 0x4C000000#32 - ∑ i, ∑ j, label a1 i j := by
    unfold ncnt
    rw [subf_apply, constant_apply, cnt_eq]
  rw [hn, cnt_eq]
  simp only [sum1_eq a0 a1 a4 vm h4, sum2_eq a0 a1 a4 vm h4]

end Stages

end Cert.KernelIdeal.Form

end
-- ==== Proof.RunValue.lean ====
/-
  The idealized kernel's run with its RESULT named: every weakly fair execution of @main terminates, nothing faulting,
  the scalar result buffer holds what the last stretch of host operations computes from the second region's exit
  contents, and the three argument arrays are as launched. The contents at each boundary between host stretches and
  regions are the fold W0 … W5 through @main; the run over the five segments leaves every unscoped buffer at W5, and
  the result is W5 read at the result's buffer.
-/
import proofs.«159326_j30880814858588_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v25) = W5 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v25 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.KernelIdeal.RunValue

end
-- ==== Proof.KHost.lean ====
/-
  The contents of the kernel's buffers at each boundary between host stretches and regions, at the buffers the
  result depends on. The first stretch leaves the margins' row 1 / count^(1/4); the statistics region leaves its five
  columns; the second stretch turns them into the two additive-term columns, the two scales and the two counts; the
  loss region leaves its two columns; the last stretch totals, divides and adds. So the result buffer ends at the
  two-pass form of the loss at the score, label and margin functions of the argument arrays.
-/
import proofs.«159326_j30880814858588_2_alg».proof.Proof.Gen.KernelIdeal.Frame
import proofs.«159326_j30880814858588_2_alg».proof.Proof.KForm
import proofs.«159326_j30880814858588_2_alg».proof.Proof.RunValue
import Idealize.ShloMosaic.Lib.StableHlo.Run
import Idealize.ShloMosaic.Lib.Pipeline.Value
import Idealize.ShloMosaic.Lib.Tactic

set_option maxRecDepth 16384

noncomputable section

namespace Cert.KernelIdeal.HostValue

open Cert.KernelIdeal Cert.KernelIdeal.Gen Cert.Margin
open Idealize.ShloMosaic Idealize.ShloMosaic.TcCoe Idealize.ShloMosaic.ValueIdx Idealize.SL.Sem Idealize.ShloMosaic.StableHlo
open Idealize.ShloMosaic.Tactic
open Cert.KernelIdeal.StatsValue (colPos colNeg colMaxPos colMaxNeg colCount)
open Cert.KernelIdeal.LossValue (colSum1 colSum2)

variable (m : (ℓ : Loc nD τ sig) → Buf (Elt Ideal) ℓ) (ρ : Dev nD → PrngReg)

/-- The host's power of two arrays, read at an index, is the power of the entries. -/
theorem hostPowf_at {s : Shape} (a b : FVec Ideal s .f32) (i : s.Idx) :
    Host.powf (F := Ideal) (φ := .f32) a b i = Ideal.pow (a i) (b i) := rfl

/-! ### What the statistics region finds -/

theorem V1_arg0 (c : Dev nD) : V1 m ρ c main_arg0 = m ((c : Thread nD τ).loc main_arg0) := by
  show StableHlo.after hostOps0 (W0 m ρ c) (Proc.devRef .tc main_arg0) = _
  after_results

theorem V1_arg1 (c : Dev nD) : V1 m ρ c main_arg1 = m ((c : Thread nD τ).loc main_arg1) := by
  show StableHlo.after hostOps0 (W0 m ρ c) (Proc.devRef .tc main_arg1) = _
  after_results

/-- The margins' row: entry k is 1 / count_k^(1/4). -/
theorem V1_v4_apply (c : Dev nD) (k : Fin 8192) :
    (V1 m ρ c main_v4 : S1x8192.Idx → EReal) (ix2 (0 : Fin 1) k) = margin (m ((c : Thread nD τ).loc main_arg2)) k := by
  have e : (W1 m ρ c (Proc.devRef .tc main_v4) : S1x8192.Idx → EReal)
      = shapeCast S1x8192 (Host.divf (F := Ideal) (φ := .f32)
          (broadcastInDim S8192 ![] Facts₀.bcast_S_S8192 (constant (F := Ideal) S_ .f32 0x3F800000#32))
          (Host.powf (F := Ideal) (φ := .f32) (m ((c : Thread nD τ).loc main_arg2))
            (broadcastInDim S8192 ![] Facts₀.bcast_S_S8192 (constant (F := Ideal) S_ .f32 0x3E800000#32))))
          Facts₀.shapeCasts_S8192_S1x8192 := by
    show StableHlo.after hostOps0 (W0 m ρ c) (Proc.devRef .tc main_v4) = _
    after_results
    rfl
  show (W1 m ρ c (Proc.devRef .tc main_v4) : S1x8192.Idx → EReal) (ix2 (0 : Fin 1) k) = _
  rw [e, shapeCast_a_1a_apply, Form.hostDivf_at, hostPowf_at, broadcastInDim_scalar_apply, broadcastInDim_scalar_apply,
    constant_apply, constant_apply, Cert.Words.one]
  rfl

/-! ### What the statistics region leaves -/

theorem W2_pos (c : Dev nD) : (W2 m ρ c (Proc.devRef .tc main_v5_0) : S4096x1.Idx → EReal) = colPos (m ((c : Thread nD τ).loc main_arg0)) (m ((c : Thread nD τ).loc main_arg1)) := by
  have h := W2_arr m ρ c 3
  rw [StatsValue.final0_3 (V1 m ρ) c, V1_arg0, V1_arg1] at h
  exact h

theorem W2_neg (c : Dev nD) : (W2 m ρ c (Proc.devRef .tc main_v5_1) : S4096x1.Idx → EReal) = colNeg (m ((c : Thread nD τ).loc main_arg0)) (m ((c : Thread nD τ).loc main_arg1)) := by
  have h := W2_arr m ρ c 4
  rw [StatsValue.final0_4 (V1 m ρ) c, V1_arg0, V1_arg1] at h
  exact h

theorem W2_maxPos (c : Dev nD) : (W2 m ρ c (Proc.devRef .tc main_v5_2) : S4096x1.Idx → EReal) = colMaxPos (m ((c : Thread nD τ).loc main_arg1)) (V1 m ρ c main_v4) := by
  have h := W2_arr m ρ c 5
  rw [StatsValue.final0_5 (V1 m ρ) c, V1_arg1] at h
  exact h

theorem W2_maxNeg (c : Dev nD) : (W2 m ρ c (Proc.devRef .tc main_v5_3) : S4096x1.Idx → EReal) = colMaxNeg (m ((c : Thread nD τ).loc main_arg1)) (V1 m ρ c main_v4) := by
  have h := W2_arr m ρ c 6
  rw [StatsValue.final0_6 (V1 m ρ) c, V1_arg1] at h
  exact h

theorem W2_count (c : Dev nD) : (W2 m ρ c (Proc.devRef .tc main_v5_4) : S4096x1.Idx → EReal) = colCount (m ((c : Thread nD τ).loc main_arg1)) := by
  have h := W2_arr m ρ c 7
  rw [StatsValue.final0_7 (V1 m ρ) c, V1_arg1] at h
  exact h

theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (V1_arg1 m ρ c)

theorem W2_v4 (c : Dev nD) : W2 m ρ c (Proc.devRef .tc main_v4) = V1 m ρ c main_v4 :=
  (W2_arr m ρ c 2).trans (((dat0 (V1 m ρ) c).arrAt_in 2 rfl _).trans (A_eq0 (V1 m ρ) c 2))

/-! ### What the loss region finds -/

theorem V3_arg0 (c : Dev nD) : V3 m ρ c main_arg0 = m ((c : Thread nD τ).loc main_arg0) := by
  refine Eq.trans ?_ (W2_arg0 m ρ c)
  show StableHlo.after hostOps1 (W2 m ρ c) (Proc.devRef .tc main_arg0) = _
  after_results

theorem V3_arg1 (c : Dev nD) : V3 m ρ c main_arg1 = m ((c : Thread nD τ).loc main_arg1) := by
  refine Eq.trans ?_ (W2_arg1 m ρ c)
  show StableHlo.after hostOps1 (W2 m ρ c) (Proc.devRef .tc main_arg1) = _
  after_results

theorem V3_v4 (c : Dev nD) : V3 m ρ c main_v4 = V1 m ρ c main_v4 := by
  refine Eq.trans ?_ (W2_v4 m ρ c)
  show StableHlo.after hostOps1 (W2 m ρ c) (Proc.devRef .tc main_v4) = _
  after_results

theorem V3_v17 (c : Dev nD) : (V3 m ρ c main_v17 : S4096x1.Idx → EReal) = Form.add1 (m ((c : Thread nD τ).loc main_arg0)) (m ((c : Thread nD τ).loc main_arg1)) := by
  show StableHlo.after hostOps1 (W2 m ρ c) (Proc.devRef .tc main_v17) = _
  after_results
  rw [W2_neg m ρ c, W2_pos m ρ c]
  rfl

theorem V3_v19 (c : Dev nD) : (V3 m ρ c main_v19 : S4096x1.Idx → EReal) = Form.add2 (m ((c : Thread nD τ).loc main_arg0)) (m ((c : Thread nD τ).loc main_arg1)) := by
  show StableHlo.after hostOps1 (W2 m ρ c) (Proc.devRef .tc main_v19) = _
  after_results
  rw [W2_neg m ρ c, W2_pos m ρ c]
  rfl

theorem V3_v13 (c : Dev nD) : (V3 m ρ c main_v13 : S1x1.Idx → EReal) = Form.sc1 (m ((c : Thread nD τ).loc main_arg1)) (V1 m ρ c main_v4) := by
  show StableHlo.after hostOps1 (W2 m ρ c) (Proc.devRef .tc main_v13) = _
  after_results
  rw [W2_maxPos m ρ c]
  rfl

theorem V3_v15 (c : Dev nD) : (V3 m ρ c main_v15 : S1x1.Idx → EReal) = Form.sc2 (m ((c : Thread nD τ).loc main_arg1)) (V1 m ρ c main_v4) := by
  show StableHlo.after hostOps1 (W2 m ρ c) (Proc.devRef .tc main_v15) = _
  after_results
  rw [W2_maxNeg m ρ c]
  rfl

theorem W3_v10 (c : Dev nD) : (W3 m ρ c (Proc.devRef .tc main_v10) : S_.Idx → EReal) = Form.cnt (m ((c : Thread nD τ).loc main_arg1)) := by
  show StableHlo.after hostOps1 (W2 m ρ c) (Proc.devRef .tc main_v10) = _
  after_results
  rw [W2_count m ρ c]
  rfl

theorem W3_v11 (c : Dev nD) : (W3 m ρ c (Proc.devRef .tc main_v11) : S_.Idx → EReal) = Form.ncnt (m ((c : Thread nD τ).loc main_arg1)) := by
  show StableHlo.after hostOps1 (W2 m ρ c) (Proc.devRef .tc main_v11) = _
  after_results
  rw [W2_count m ρ c]
  rfl

/-! ### What the loss region leaves, and the result -/

theorem W4_sum1 (c : Dev nD) : (W4 m ρ c (Proc.devRef .tc main_v20_0) : S4096x1.Idx → EReal)
    = colSum1 (m ((c : Thread nD τ).loc main_arg0)) (m ((c : Thread nD τ).loc main_arg1)) (V1 m ρ c main_v4) (Form.add1 (m ((c : Thread nD τ).loc main_arg0)) (m ((c : Thread nD τ).loc main_arg1))) (Form.sc1 (m ((c : Thread nD τ).loc main_arg1)) (V1 m ρ c main_v4)) (Form.sc2 (m ((c : Thread nD τ).loc main_arg1)) (V1 m ρ c main_v4)) := by
  have h := W4_arr m ρ c 7
  rw [LossValue.final1_7 (V3 m ρ) c, V3_arg0, V3_arg1, V3_v4, V3_v17, V3_v13, V3_v15] at h
  exact h

theorem W4_sum2 (c : Dev nD) : (W4 m ρ c (Proc.devRef .tc main_v20_1) : S4096x1.Idx → EReal)
    = colSum2 (m ((c : Thread nD τ).loc main_arg0)) (m ((c : Thread nD τ).loc main_arg1)) (V1 m ρ c main_v4) (Form.add2 (m ((c : Thread nD τ).loc main_arg0)) (m ((c : Thread nD τ).loc main_arg1))) (Form.sc1 (m ((c : Thread nD τ).loc main_arg1)) (V1 m ρ c main_v4)) (Form.sc2 (m ((c : Thread nD τ).loc main_arg1)) (V1 m ρ c main_v4)) := by
  have h := W4_arr m ρ c 8
  rw [LossValue.final1_8 (V3 m ρ) c, V3_arg0, V3_arg1, V3_v4, V3_v19, V3_v13, V3_v15] at h
  exact h

theorem W4_v10 (c : Dev nD) : (W4 m ρ c (Proc.devRef .tc main_v10) : S_.Idx → EReal) = Form.cnt (m ((c : Thread nD τ).loc main_arg1)) :=
  (W4_of_ne m ρ c main_v10 (by decide)).trans (W3_v10 m ρ c)

theorem W4_v11 (c : Dev nD) : (W4 m ρ c (Proc.devRef .tc main_v11) : S_.Idx → EReal) = Form.ncnt (m ((c : Thread nD τ).loc main_arg1)) :=
  (W4_of_ne m ρ c main_v11 (by decide)).trans (W3_v11 m ρ c)

/-- The result buffer after the last stretch: the host operations' composed term. -/
theorem W5_result (c : Dev nD) : (W5 m ρ c (Proc.devRef .tc main_v25) : S_.Idx → EReal)
    = Form.result (m ((c : Thread nD τ).loc main_arg0)) (m ((c : Thread nD τ).loc main_arg1)) (V1 m ρ c main_v4) := by
  show StableHlo.after hostOps2 (W4 m ρ c) (Proc.devRef .tc main_v25) = _
  after_results
  rw [W4_sum1 m ρ c, W4_sum2 m ρ c, W4_v10 m ρ c, W4_v11 m ρ c]
  rfl

/-- The result buffer after the last stretch is the two-pass form of the loss. -/
theorem W5_value (c : Dev nD) : (W5 m ρ c (Proc.devRef .tc main_v25) : S_.Idx → EReal)
    = fun _ => twoPass (score (m ((c : Thread nD τ).loc main_arg0))) (label (m ((c : Thread nD τ).loc main_arg1))) (margin (m ((c : Thread nD τ).loc main_arg2)))
        (Ideal.ofBits .f32 0x3F000000#32) (Ideal.ofBits .f32 0x4C000000#32) := by
  rw [W5_result]
  funext k
  exact Form.result_eq (m ((c : Thread nD τ).loc main_arg0)) (m ((c : Thread nD τ).loc main_arg1)) (V1 m ρ c main_v4) (margin (m ((c : Thread nD τ).loc main_arg2))) (V1_v4_apply m ρ c) k

/-- THE KERNEL'S RUN, READ: the result at the two-pass form of the loss, the arguments unchanged. -/
theorem run : θ_run defs (onTc (τ := τ) (main (F := Ideal))) ⟨m, fun _ => 0, ρ⟩ (fun r => ∀ c : Dev nD,
      r.2.mem ((c.tc : Thread nD τ).loc main_v25)
        = (fun _ => twoPass (score (m ((c : Thread nD τ).loc main_arg0))) (label (m ((c : Thread nD τ).loc main_arg1))) (margin (m ((c : Thread nD τ).loc main_arg2)))
            (Ideal.ofBits .f32 0x3F000000#32) (Ideal.ofBits .f32 0x4C000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (W5_value m ρ c), (h c).2⟩)
    (Cert.KernelIdeal.RunValue.run_result m ρ)

end Cert.KernelIdeal.HostValue

end
-- ==== Proof.RefValue.lean ====
/-
  The reference program's result as one closed form. Each half of the loss is read at an entry (a, b) of the
  [4096, 8192] arrays: the score is the logistic of the logit, the margin of a column is the reciprocal fourth root of
  its class count, the shift is (v·m)·(½ / max(v·m)) with the maximum taken over every entry, the additive term of the
  denominator is the row sum of p·(1−m) plus the total of p·m, and the masked term is −log of the quotient where the mask
  is positive and 0 elsewhere. The second half is the first half's quotient at the mask 1 − l, entering as −log(1 − q).
  The totals are sums over every entry, regrouped as double sums over rows and columns.
-/
import proofs.«159326_j30880814858588_2_alg».proof.Proof.Gen.ReferenceIdeal.Read
import proofs.«159326_j30880814858588_2_alg».proof.Proof.Inputs
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.Margin Idealize.ShloMosaic Idealize.ShloMosaic.ValueIdx

/-- An array of the batch's shape, as the function of its index it is. -/
abbrev Arr2 : Type := (⟨S4096x8192, .f32⟩ : BufTy).Contents (Elt Ideal)
/-- An array of one entry per column. -/
abbrev Arr1 : Type := (⟨S8192, .f32⟩ : BufTy).Contents (Elt Ideal)

/-- The word of 0.5, the largest shift. -/
abbrev hw : EReal := Ideal.ofBits .f32 0x3F000000#32

/-! ### The inputs at an entry -/

/-- The score: 1 / (1 + e^(−x)) is the logistic. -/
theorem v5_at (x0 : Arr2) (a : Fin 4096) (b : Fin 8192) :
    val_main_v5 (F := Ideal) x0 (ix2 a b) = score x0 a b := by
  rw [val_main_v5_apply, val_main_v4_apply, val_main_cst_0_apply, val_main_v3_apply, val_main_v2_apply,
    val_main_cst_apply, val_main_v1_apply, val_main_v0_apply]
  simp only [Ideal.hostDivf_def, Ideal.ofBits_def, Ideal.addf_def, Ideal.hostUnary_exp_def, Ideal.hostNegf_def,
    Ideal.negf_def, Cert.Words.one]
  exact logistic_spelled _

/-- A column's index, reached through the two broadcasts, is the column's coordinate. -/
theorem idx_col (a : Fin 4096) (b : Fin 8192) : idx_main_v10 (idx_main_v11 (ix2 a b)) = ix1 b := by
  funext d; match d with | ⟨0, _⟩ => rfl

/-- The margin of the column. -/
theorem v11_at (x2 : Arr1) (a : Fin 4096) (b : Fin 8192) :
    val_main_v11 (F := Ideal) x2 (ix2 a b) = margin x2 b := by
  rw [val_main_v11_apply, val_main_v10_apply, val_main_v9_apply, val_main_v8_apply, val_main_cst_2_apply,
    val_main_v7_apply, val_main_v6_apply, val_main_cst_1_apply, idx_col]
  simp only [Ideal.hostDivf_def, Ideal.ofBits_def, Ideal.hostPowf_def, Cert.Words.one]
  rfl

/-- The mask times the margin. -/
theorem v12_at (x1 : Arr2) (x2 : Arr1) (a : Fin 4096) (b : Fin 8192) :
    val_main_v12 (F := Ideal) x1 x2 (ix2 a b) = margin x2 b * label x1 a b := by
  rw [val_main_v12_apply, v11_at]
  rfl

/-- The complementary mask 1 − l. -/
theorem v41_at (x1 : Arr2) (a : Fin 4096) (b : Fin 8192) :
    val_main_v41 (F := Ideal) x1 (ix2 a b) = 1 - label x1 a b := by
  rw [val_main_v41_apply, val_main_v40_apply, val_main_cst_12_apply]
  simp only [Ideal.subf_def, Ideal.ofBits_def, Cert.Words.one]
  rfl

/-- Read as a label array, the complementary mask is 1 − l. -/
theorem label_v41 (x1 : Arr2) : label (val_main_v41 (F := Ideal) x1) = fun i j => 1 - label x1 i j := by
  funext i j
  exact v41_at x1 i j

/-! ### The maximum over every entry -/

/-- A maximum folded from −∞ over every entry of an array is the supremum over rows of the suprema over columns. -/
theorem max_total (y : Arr2) (init : (⟨S_, .f32⟩ : BufTy).Contents (Elt Ideal)) (hinit : ∀ k, init k = ⊥) (k : S_.Idx) :
    Host.reduce (FloatOps.maximumf (F := Ideal) (φ := .f32)) y init reducesTo_S4096x8192_S_d0_1 h_S_ k
      = ⨆ a : Fin 4096, ⨆ b : Fin 8192, y (ix2 a b) := by
  rw [Host.reduce_eq_fold, hinit, Finset.filter_true_of_mem (fun j _ => funext fun d => d.elim0)]
  have hsup : Finset.univ.fold (FloatOps.maximumf (F := Ideal) (φ := .f32)) ⊥ y = Finset.univ.sup y := rfl
  rw [hsup, Finset.sup_univ_eq_iSup, ← Equiv.iSup_comp (idxEquiv2 (n0 := 4096) (n1 := 8192)).symm, iSup_prod]
  rfl

/-- The largest masked margin. -/
theorem v13_at (x1 : Arr2) (x2 : Arr1) (k : S_.Idx) :
    val_main_v13 (F := Ideal) x1 x2 k = ⨆ a : Fin 4096, ⨆ b : Fin 8192, margin x2 b * label x1 a b := by
  unfold val_main_v13
  rw [max_total _ _ (fun k => by rw [val_main_cst_3_apply]; exact Cert.Words.negInf)]
  exact iSup_congr fun a => iSup_congr fun b => v12_at x1 x2 a b

/-- The shift (v·m)·(½ / max(v·m)). -/
theorem v16_at (x1 : Arr2) (x2 : Arr1) (a : Fin 4096) (b : Fin 8192) :
    val_main_v16 (F := Ideal) x1 x2 (ix2 a b)
      = (margin x2 b * label x1 a b) * Ideal.div hw (⨆ a' : Fin 4096, ⨆ b' : Fin 8192, margin x2 b' * label x1 a' b') := by
  rw [val_main_v16_apply, v12_at, val_main_v15_apply, val_main_v14_apply, val_main_cst_4_apply, v13_at]
  rfl

/-- The numerator e^(p − shift). -/
theorem v27_at (x0 x1 : Arr2) (x2 : Arr1) (a : Fin 4096) (b : Fin 8192) :
    val_main_v27 (F := Ideal) x0 x1 x2 (ix2 a b) = numOf (score x0) (margin x2) hw (label x1) a b := by
  rw [val_main_v27_apply, val_main_v26_apply, v5_at, v16_at]
  rfl

/-! ### The sums -/

/-- The total of p·m, as a double sum over rows and columns. -/
theorem v18_at (x0 x1 : Arr2) (k : S_.Idx) :
    val_main_v18 (F := Ideal) x0 x1 k = ∑ a : Fin 4096, ∑ b : Fin 8192, score x0 a b * label x1 a b := by
  rw [val_main_v18_apply, val_main_cst_5_apply]
  simp only [Ideal.ofBits_def, Cert.Words.zero, zero_add]
  rw [sum_idx2]
  refine Finset.sum_congr rfl fun a _ => Finset.sum_congr rfl fun b _ => ?_
  rw [val_main_v17_apply, v5_at]
  rfl

/-- Entry k of row a. -/
theorem idx_row (a : Fin 4096) (k : Fin 8192) : idx_main_v22 (ix1 a) k = ix2 a k := by
  funext d; match d with | ⟨0, _⟩ => rfl | ⟨1, _⟩ => rfl

/-- The row of an entry, reached through the two broadcasts of the row sums. -/
theorem idx_rowOf (a : Fin 4096) (b : Fin 8192) : idx_main_v23 (idx_main_v28 (ix2 a b)) = ix1 a := by
  funext d; match d with | ⟨0, _⟩ => rfl

/-- The row sum of p·(1−m). -/
theorem v22_at (x0 x1 : Arr2) (a : Fin 4096) :
    val_main_v22 (F := Ideal) x0 x1 (ix1 a) = ∑ b : Fin 8192, score x0 a b * (1 - label x1 a b) := by
  rw [val_main_v22_apply, val_main_cst_7_apply]
  simp only [Ideal.ofBits_def, Cert.Words.zero, zero_add]
  refine Finset.sum_congr rfl fun b _ => ?_
  rw [idx_row, val_main_v21_apply, v5_at, val_main_v20_apply, val_main_v19_apply, val_main_cst_6_apply]
  simp only [Ideal.subf_def, Ideal.mulf_def, Ideal.ofBits_def, Cert.Words.one]
  rfl

/-- The additive term of the denominator: the row sum of p·(1−m) plus the total of p·m. -/
theorem v28_at (x0 x1 : Arr2) (a : Fin 4096) (b : Fin 8192) :
    val_main_v28 (F := Ideal) x0 x1 (ix2 a b) = addOf (score x0) (label x1) a := by
  rw [val_main_v28_apply, val_main_v25_apply, val_main_v23_apply, val_main_v24_apply, idx_rowOf, v22_at, v18_at]
  rfl

/-- The quotient num / (num + add − p). -/
theorem v31_at (x0 x1 : Arr2) (x2 : Arr1) (a : Fin 4096) (b : Fin 8192) :
    val_main_v31 (F := Ideal) x0 x1 x2 (ix2 a b) = quotOf (score x0) (margin x2) hw (label x1) a b := by
  rw [val_main_v31_apply, val_main_v30_apply, val_main_v29_apply, v27_at, v28_at, v5_at]
  rfl

/-! ### The masked terms -/

/-- A select on "c is greater than 0" is the `if` on 0 < c. -/
theorem select_pos (c x y : EReal) :
    Scalar.select (FloatOps.cmpf (F := Ideal) (φ := .f32) .ogt c 0) x y = if 0 < c then x else y := by
  show Scalar.select (BitVec.ofBool (decide (0 < c))) x y = _
  by_cases h : 0 < c
  · rw [if_pos h, decide_eq_true h]; exact select_one x y
  · rw [if_neg h, decide_eq_false h]; exact select_zero x y

/-- The first half's term: −log of the quotient where the label is positive. -/
theorem v36_at (x0 x1 : Arr2) (x2 : Arr1) (a : Fin 4096) (b : Fin 8192) :
    val_main_v36 (F := Ideal) x0 x1 x2 (ix2 a b)
      = if 0 < label x1 a b then -(Ideal.log (quotOf (score x0) (margin x2) hw (label x1) a b)) else 0 := by
  rw [val_main_v36_apply, val_main_v33_apply, val_main_v32_apply, val_main_cst_8_apply, val_main_v35_apply,
    val_main_v34_apply, v31_at, val_main_call0_v1_apply, val_main_call0_v0_apply, val_main_cst_9_apply]
  simp only [Ideal.ofBits_def, Cert.Words.zero, Ideal.hostUnary_log_def, Ideal.hostNegf_def, Ideal.negf_def]
  exact select_pos _ _ _

/-- The second half's quotient is the first half's at the complementary mask. -/
theorem v73_eq (x0 x1 : Arr2) (x2 : Arr1) :
    val_main_v73 (F := Ideal) x0 x1 x2 = val_main_v31 (F := Ideal) x0 (val_main_v41 (F := Ideal) x1) x2 := rfl

/-- The second half's term: −log(1 − quotient at the mask 1 − l) where 1 − l is positive. -/
theorem v80_at (x0 x1 : Arr2) (x2 : Arr1) (a : Fin 4096) (b : Fin 8192) :
    val_main_v80 (F := Ideal) x0 x1 x2 (ix2 a b)
      = if 0 < 1 - label x1 a b
          then -(Ideal.log (1 - quotOf (score x0) (margin x2) hw (fun i j => 1 - label x1 i j) a b)) else 0 := by
  rw [val_main_v80_apply, val_main_v75_apply, v41_at, val_main_v74_apply, val_main_cst_22_apply, val_main_v79_apply,
    val_main_v78_apply, val_main_v77_apply, val_main_v76_apply, val_main_cst_23_apply, v73_eq, v31_at, label_v41,
    val_main_call1_v1_apply, val_main_call1_v0_apply, val_main_cst_24_apply]
  simp only [Ideal.ofBits_def, Cert.Words.zero, Cert.Words.one, Ideal.hostUnary_log_def, Ideal.hostNegf_def,
    Ideal.negf_def, Ideal.subf_def]
  exact select_pos _ _ _

/-! ### The four totals and the result -/

/-- The total of the first half's terms. -/
theorem v37_at (x0 x1 : Arr2) (x2 : Arr1) (k : S_.Idx) :
    val_main_v37 (F := Ideal) x0 x1 x2 k
      = ∑ a : Fin 4096, ∑ b : Fin 8192,
          (if 0 < label x1 a b then -(Ideal.log (quotOf (score x0) (margin x2) hw (label x1) a b)) else 0) := by
  rw [val_main_v37_apply, val_main_cst_10_apply]
  simp only [Ideal.ofBits_def, Cert.Words.zero, zero_add]
  rw [sum_idx2]
  exact Finset.sum_congr rfl fun a _ => Finset.sum_congr rfl fun b _ => v36_at x0 x1 x2 a b

/-- The number of positive labels, as the total of l. -/
theorem v38_at (x1 : Arr2) (k : S_.Idx) :
    val_main_v38 (F := Ideal) x1 k = ∑ a : Fin 4096, ∑ b : Fin 8192, label x1 a b := by
  rw [val_main_v38_apply, val_main_cst_11_apply]
  simp only [Ideal.ofBits_def, Cert.Words.zero, zero_add]
  rw [sum_idx2]
  rfl

/-- The total of the second half's terms. -/
theorem v81_at (x0 x1 : Arr2) (x2 : Arr1) (k : S_.Idx) :
    val_main_v81 (F := Ideal) x0 x1 x2 k
      = ∑ a : Fin 4096, ∑ b : Fin 8192,
          (if 0 < 1 - label x1 a b
            then -(Ideal.log (1 - quotOf (score x0) (margin x2) hw (fun i j => 1 - label x1 i j) a b)) else 0) := by
  rw [val_main_v81_apply, val_main_cst_25_apply]
  simp only [Ideal.ofBits_def, Cert.Words.zero, zero_add]
  rw [sum_idx2]
  exact Finset.sum_congr rfl fun a _ => Finset.sum_congr rfl fun b _ => v80_at x0 x1 x2 a b

/-- The total of 1 − l. -/
theorem v82_at (x1 : Arr2) (k : S_.Idx) :
    val_main_v82 (F := Ideal) x1 k = ∑ a : Fin 4096, ∑ b : Fin 8192, (1 - label x1 a b) := by
  rw [val_main_v82_apply, val_main_cst_26_apply]
  simp only [Ideal.ofBits_def, Cert.Words.zero, zero_add]
  rw [sum_idx2]
  exact Finset.sum_congr rfl fun a _ => Finset.sum_congr rfl fun b _ => v41_at x1 a b

/-- THE REFERENCE'S RESULT: the two masked means of −log, each half evaluated on its own. -/
theorem result_eq (x0 x1 : (⟨Cert.ReferenceIdeal.S4096x8192, .f32⟩ : BufTy).Contents (Elt Ideal))
    (x2 : (⟨Cert.ReferenceIdeal.S8192, .f32⟩ : BufTy).Contents (Elt Ideal)) (i : Cert.ReferenceIdeal.S_.Idx) :
    Cert.ReferenceIdeal.Read.val_main_v84 (F := Ideal) x0 x1 x2 i
      = Cert.Margin.direct (Cert.Margin.score x0) (Cert.Margin.label x1) (Cert.Margin.margin x2)
          (Ideal.ofBits .f32 0x3F000000#32) := by
  rw [val_main_v84_apply, val_main_v39_apply, val_main_v83_apply, v37_at, v38_at, v81_at, v82_at]
  rfl

end Cert.ReferenceIdeal.RefValue

end
-- ==== Proof.LibBinarySelect.lean ====
/-
  General facts over the extended reals.
  A factor that is 0 or 1 selects (x·l is x or 0, for infinite x too, since x·0 = 0); the coercion from the reals
  commutes with finite sums; half of a bound times a positive quantity below the bound is real; and for a real y and
  reals q ≤ A, −log(e^y / (e^y + A − q)) = log(e^y + A − q) − y.
-/
import Idealize.ShloMosaic.PureOps.Ideal

namespace Cert.Lib

open Idealize.ShloMosaic

/-- The coercion of a finite real sum is the sum of the coercions. -/
theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- In the extended reals 1 − 1 = 0. -/
theorem one_sub_one : (1 : EReal) - 1 = 0 := by
  rw [← EReal.coe_one, ← EReal.coe_sub, sub_self, EReal.coe_zero]

/-- A factor that is 0 or 1 selects: x·l is x where l is positive and 0 elsewhere, for every x, the infinities too. -/
theorem mul_sel (x l : EReal) (hl : l = 0 ∨ l = 1) : x * l = if 0 < l then x else 0 := by
  rcases hl with rfl | rfl <;> simp

/-- The complementary factor 1 − l selects the other positions. -/
theorem mul_sel_compl (x l : EReal) (hl : l = 0 ∨ l = 1) : x * (1 - l) = if 0 < l then 0 else x := by
  rcases hl with rfl | rfl <;> simp [one_sub_one]

/-- Half of a bound M, times a positive v ≤ M, is a real number: for M = ⊤ the half-quotient is 0 and the
    product is 0 even when v = ⊤; for real M both factors are real. -/
theorem mul_div_half_real (v M : EReal) (hv : 0 < v) (hvM : v ≤ M) :
    ∃ s : ℝ, v * Ideal.div (((1 / 2 : ℝ)) : EReal) M = (s : EReal) := by
  induction M using EReal.rec with
  | bot => exact absurd (lt_of_lt_of_le hv hvM) (by simp)
  | top => exact ⟨0, by simp [Ideal.div, EReal.inv_top]⟩
  | coe M =>
    have hM : (0 : ℝ) < M := by exact_mod_cast lt_of_lt_of_le hv hvM
    induction v using EReal.rec with
    | bot => exact absurd hv (by simp)
    | top => exact absurd hvM (by simp)
    | coe v =>
      refine ⟨v * ((1 / 2) * (1 / M)), ?_⟩
      rw [Ideal.div_coe hM.ne']
      norm_cast

/-- For a real y and reals q ≤ A: the denominator e^y + A − q is at least e^y > 0, so
    −log(e^y / (e^y + A − q)) = log(e^y + A − q) − y. -/
theorem neg_log_exp_div (y A q : ℝ) (h : q ≤ A) :
    -(Ideal.log (Ideal.div (Ideal.exp (y : EReal)) (Ideal.exp (y : EReal) + (A : EReal) - (q : EReal))))
      = Ideal.log (Ideal.exp (y : EReal) + (A : EReal) - (q : EReal)) - (y : EReal) := by
  have hD : 0 < Real.exp y + A - q := by have := Real.exp_pos y; linarith
  have hE : Ideal.exp (y : EReal) + (A : EReal) - (q : EReal) = ((Real.exp y + A - q : ℝ) : EReal) := by
    rw [Ideal.exp_coe, ← EReal.coe_add, ← EReal.coe_sub]
  rw [hE, Ideal.div_coe hD.ne', Ideal.exp_coe, ← EReal.coe_mul, Ideal.log_coe, Ideal.log_coe,
    if_neg (not_le.mpr hD), if_neg (not_le.mpr (mul_pos (Real.exp_pos y) (one_div_pos.mpr hD))),
    ← EReal.coe_neg, ← EReal.coe_sub]
  congr 1
  rw [Real.log_mul (Real.exp_pos y).ne' (one_div_pos.mpr hD).ne', Real.log_exp, one_div, Real.log_inv]
  ring

end Cert.Lib
-- ==== Proof.MarginAgree.lean ====
/-
  The two closed forms of the class-balanced margin loss agree.
  A 0/1 label selects, so the suprema of v·l and v·(1−l) are the two selected maxima and the blended shift is
  v·(h / topPos) at a positive label and v·(h / topNeg) at a zero label; hence the numerators coincide.
  Scores and labels are real, so the row and total sums are real sums and regroup: the additive terms coincide, and
  the total of 1 − l is (number of positions) − (total of l).
  At a positive label the shift is real (the selected maximum bounds v j; if it is ⊤ the half-quotient is 0), so
  y = p − shift is real, the additive term A is a real with p ≤ A, and −log(e^y / (e^y + A − p)) = log(e^y + A − p) − y.
  At a zero label the two summands of the second half are the same expression up to 0 − x = −x.
-/
import proofs.«159326_j30880814858588_2_alg».proof.Proof.Spec
import proofs.«159326_j30880814858588_2_alg».proof.Proof.LibBinarySelect

namespace Cert.Margin

open Idealize.ShloMosaic Cert.Lib

variable {ι κ : Type} [Fintype ι] [Fintype κ]

section Select
variable (l : ι → κ → EReal) (v : κ → EReal) (h : EReal) (hl : ∀ i j, l i j = 0 ∨ l i j = 1)
include hl

/-- The supremum of v·l is the largest margin at a positive label. -/
theorem iSup_mul_eq_topPos : (⨆ i', ⨆ j', v j' * l i' j') = topPos l v := by
  have e : ∀ i' j', v j' * l i' j' = if 0 < l i' j' then v j' else 0 := fun i' j' => mul_sel _ _ (hl i' j')
  simp only [topPos, e]

/-- The supremum of v·(1−l) is the largest margin at a non-positive label. -/
theorem iSup_mul_compl_eq_topNeg : (⨆ i', ⨆ j', v j' * (1 - l i' j')) = topNeg l v := by
  have e : ∀ i' j', v j' * (1 - l i' j') = if 0 < l i' j' then 0 else v j' :=
    fun i' j' => mul_sel_compl _ _ (hl i' j')
  simp only [topNeg, e]

omit hl in
/-- At a positive label the blended shift is v·(h / topPos). -/
theorem shift_pos (i : ι) (j : κ) (h1 : l i j = 1) : shift l v h i j = v j * Ideal.div h (topPos l v) := by
  simp [shift, h1, one_sub_one]

omit hl in
/-- At a zero label the blended shift is v·(h / topNeg). -/
theorem shift_neg (i : ι) (j : κ) (h0 : l i j = 0) : shift l v h i j = v j * Ideal.div h (topNeg l v) := by
  simp [shift, h0]

/-- At a positive label the first half's own numerator is the two-pass numerator. -/
theorem numOf_pos (p : ι → κ → EReal) (i : ι) (j : κ) (h1 : l i j = 1) :
    numOf p v h l i j = num p l v h i j := by
  rw [numOf, num, iSup_mul_eq_topPos l v hl, shift_pos l v h i j h1, h1, mul_one]

/-- At a zero label the second half's own numerator (mask 1 − l) is the two-pass numerator. -/
theorem numOf_neg (p : ι → κ → EReal) (i : ι) (j : κ) (h0 : l i j = 0) :
    numOf p v h (fun i j => 1 - l i j) i j = num p l v h i j := by
  rw [numOf, num, iSup_mul_compl_eq_topNeg l v hl, shift_neg l v h i j h0, h0, sub_zero, mul_one]

omit hl in
/-- At a positive label with positive margins the shift is a real number: the largest positive-label
    margin bounds v j from above. -/
theorem shift_real_pos (hv : ∀ j, 0 < v j) (hh : h = ((1 / 2 : ℝ) : EReal)) (i : ι) (j : κ) (h1 : l i j = 1) :
    ∃ s : ℝ, shift l v h i j = (s : EReal) := by
  rw [shift_pos l v h i j h1, hh]
  refine mul_div_half_real _ _ (hv j) ?_
  refine le_iSup_of_le i (le_iSup_of_le j ?_)
  simp [h1]

end Select

section Sums
variable (p l : ι → κ → EReal) (pr lr : ι → κ → ℝ)
  (hpr : ∀ i j, p i j = (pr i j : EReal)) (hlr : ∀ i j, l i j = (lr i j : EReal))
include hpr hlr

/-- With real entries the row sum of p·l is a real sum. -/
theorem rowPos_coe (i : ι) : rowPos p l i = ((∑ j, pr i j * lr i j : ℝ) : EReal) := by
  simp only [rowPos, hpr, hlr, ← EReal.coe_mul, coe_sum]

theorem rowNeg_coe (i : ι) : rowNeg p l i = (((∑ j, pr i j) - ∑ j, pr i j * lr i j : ℝ) : EReal) := by
  simp only [rowNeg, rowPos_coe p l pr lr hpr hlr, hpr, ← coe_sum, ← EReal.coe_sub]

theorem addPos_coe (i : ι) :
    addPos p l i = ((((∑ j, pr i j) - ∑ j, pr i j * lr i j) + ∑ i', ∑ j, pr i' j * lr i' j : ℝ) : EReal) := by
  simp only [addPos, rowNeg_coe p l pr lr hpr hlr, rowPos_coe p l pr lr hpr hlr, ← coe_sum, ← EReal.coe_add]

theorem addNeg_coe (i : ι) :
    addNeg p l i
      = (((∑ j, pr i j * lr i j) + ∑ i', ((∑ j, pr i' j) - ∑ j, pr i' j * lr i' j) : ℝ) : EReal) := by
  simp only [addNeg, rowNeg_coe p l pr lr hpr hlr, rowPos_coe p l pr lr hpr hlr, ← coe_sum, ← EReal.coe_add]

omit hlr in
/-- The additive term for a real mask m is a real sum. -/
theorem addOf_coe (m : ι → κ → EReal) (mr : ι → κ → ℝ) (hmr : ∀ i j, m i j = (mr i j : EReal)) (i : ι) :
    addOf p m i = (((∑ j, pr i j * (1 - mr i j)) + ∑ i', ∑ j', pr i' j' * mr i' j' : ℝ) : EReal) := by
  simp only [addOf, hpr, hmr, ← EReal.coe_one, ← EReal.coe_sub, ← EReal.coe_mul, ← coe_sum, ← EReal.coe_add]

/-- Regrouping: row sum of p·(1−l) = (row sum of p) − (row sum of p·l). -/
theorem addOf_eq_addPos (i : ι) : addOf p l i = addPos p l i := by
  rw [addOf_coe p pr hpr l lr hlr, addPos_coe p l pr lr hpr hlr]
  congr 2
  simp only [mul_sub, mul_one, Finset.sum_sub_distrib]

/-- Regrouping for the mask 1 − l: p·(1−(1−l)) = p·l, and the total of p·(1−l) splits row by row. -/
theorem addOf_compl_eq_addNeg (i : ι) : addOf p (fun i j => 1 - l i j) i = addNeg p l i := by
  have hm : ∀ i j, (fun i j => 1 - l i j) i j = ((1 - lr i j : ℝ) : EReal) := fun i j => by
    simp only [hlr, EReal.coe_sub, EReal.coe_one]
  rw [addOf_coe p pr hpr _ (fun i j => 1 - lr i j) hm, addNeg_coe p l pr lr hpr hlr]
  congr 1
  simp only [mul_sub, mul_one, sub_sub_cancel, Finset.sum_sub_distrib]

end Sums

/-- At a positive position (l = 1), with nonnegative entries and 0/1 labels, the entry is at most
    (row sum of p·(1−l)) + (total of p·l): the first summand is nonnegative and the total contains this entry. -/
theorem le_addPos_real (pr lr : ι → κ → ℝ) (hpos : ∀ i j, 0 ≤ pr i j) (h01 : ∀ i j, lr i j = 0 ∨ lr i j = 1)
    (i : ι) (j : κ) (h1 : lr i j = 1) :
    pr i j ≤ ((∑ j, pr i j) - ∑ j, pr i j * lr i j) + ∑ i', ∑ j, pr i' j * lr i' j := by
  have hnn : ∀ i' j', 0 ≤ pr i' j' * lr i' j' := fun i' j' => by
    rcases h01 i' j' with e | e <;> simp [e, hpos]
  have ha : 0 ≤ (∑ j, pr i j) - ∑ j, pr i j * lr i j := by
    rw [← Finset.sum_sub_distrib]
    refine Finset.sum_nonneg fun j' _ => ?_
    rcases h01 i j' with e | e <;> simp [e, hpos]
  have hb : pr i j * lr i j ≤ ∑ j', pr i j' * lr i j' :=
    Finset.single_le_sum (f := fun j' => pr i j' * lr i j') (fun j' _ => hnn i j') (Finset.mem_univ j)
  have hc : ∑ j', pr i j' * lr i j' ≤ ∑ i', ∑ j', pr i' j' * lr i' j' :=
    Finset.single_le_sum (f := fun i' => ∑ j', pr i' j' * lr i' j')
      (fun i' _ => Finset.sum_nonneg fun j' _ => hnn i' j') (Finset.mem_univ i)
  rw [h1, mul_one] at hb
  linarith

section Terms
variable (p l : ι → κ → EReal) (v : κ → EReal) (h : EReal) (pr lr : ι → κ → ℝ)
  (hpr : ∀ i j, p i j = (pr i j : EReal)) (hlr : ∀ i j, l i j = (lr i j : EReal))
  (hl : ∀ i j, l i j = 0 ∨ l i j = 1)
include hpr hlr hl

/-- First half at a positive position: y = p − shift is real, the numerator is e^y, and the additive term is a
    real A ≥ p, so log(e^y + A − p) − y = −log(e^y / (e^y + A − p)). -/
theorem first_term (hpos : ∀ i j, 0 ≤ pr i j) (h01 : ∀ i j, lr i j = 0 ∨ lr i j = 1)
    (hv : ∀ j, 0 < v j) (hh : h = ((1 / 2 : ℝ) : EReal)) (i : ι) (j : κ) (h1 : l i j = 1) :
    Ideal.log (num p l v h i j + addPos p l i - p i j) - (p i j - shift l v h i j)
      = -(Ideal.log (quotOf p v h l i j)) := by
  obtain ⟨s, hs⟩ := shift_real_pos l v h hv hh i j h1
  have hy : p i j - shift l v h i j = ((pr i j - s : ℝ) : EReal) := by rw [hpr, hs, EReal.coe_sub]
  have h1r : lr i j = 1 := by
    have := h1; rw [hlr] at this; exact_mod_cast this
  have hqA := le_addPos_real pr lr hpos h01 i j h1r
  rw [quotOf, numOf_pos l v h hl p i j h1, addOf_eq_addPos p l pr lr hpr hlr i, num, hy,
    addPos_coe p l pr lr hpr hlr i, hpr i j]
  exact (neg_log_exp_div _ _ _ hqA).symm

/-- Second half at a zero position: numerator and additive term coincide, and 0 − x = −x. -/
theorem second_term (i : ι) (j : κ) (h0 : l i j = 0) :
    0 - Ideal.log (1 - Ideal.div (num p l v h i j) (num p l v h i j + addNeg p l i - p i j))
      = -(Ideal.log (1 - quotOf p v h (fun i j => 1 - l i j) i j)) := by
  rw [quotOf, numOf_neg l v h hl p i j h0, addOf_compl_eq_addNeg p l pr lr hpr hlr i, zero_sub]

end Terms

/-- The two-pass form and the direct form of the loss agree for positive real scores, 0/1 labels and
    positive (possibly infinite) margins. -/
theorem twoPass_eq_direct {ι κ : Type} [Fintype ι] [Fintype κ] (p l : ι → κ → EReal) (v : κ → EReal) (h N : EReal)
    (hp : ∀ i j, ∃ r : ℝ, 0 < r ∧ p i j = (r : EReal))
    (hl : ∀ i j, l i j = 0 ∨ l i j = 1)
    (hv : ∀ j, 0 < v j)
    (hh : h = ((1 / 2 : ℝ) : EReal))
    (hN : N = (((Fintype.card ι : ℝ) * (Fintype.card κ : ℝ) : ℝ) : EReal)) :
    twoPass p l v h N = direct p l v h := by
  classical
  choose pr hpr0 hpr using hp
  have hl' : ∀ i j, ∃ r : ℝ, (r = 0 ∨ r = 1) ∧ l i j = (r : EReal) := fun i j => by
    rcases hl i j with e | e
    · exact ⟨0, Or.inl rfl, by rw [e, EReal.coe_zero]⟩
    · exact ⟨1, Or.inr rfl, by rw [e, EReal.coe_one]⟩
  choose lr hlr01 hlr using hl'
  -- the second denominator: the total of 1 − l is (number of positions) − (total of l)
  have hden : (∑ i, ∑ j, (1 - l i j)) = N - ∑ i, ∑ j, l i j := by
    simp only [hN, hlr, ← EReal.coe_one, ← EReal.coe_sub, ← coe_sum]
    congr 1
    simp [Finset.sum_sub_distrib, Finset.card_univ]
  have hfirst : ∀ i j,
      (if 0 < l i j
        then Ideal.log (num p l v h i j + addPos p l i - p i j) - (p i j - shift l v h i j) else 0)
        = (if 0 < l i j then -(Ideal.log (quotOf p v h l i j)) else 0) := by
    intro i j
    rcases hl i j with e | e
    · rw [if_neg (by simp [e]), if_neg (by simp [e])]
    · rw [if_pos (by simp [e]), if_pos (by simp [e])]
      exact first_term p l v h pr lr hpr hlr hl (fun i j => (hpr0 i j).le) hlr01 hv hh i j e
  have hsecond : ∀ i j,
      (if 0 < 1 - l i j
        then 0 - Ideal.log (1 - Ideal.div (num p l v h i j) (num p l v h i j + addNeg p l i - p i j)) else 0)
        = (if 0 < 1 - l i j then -(Ideal.log (1 - quotOf p v h (fun i j => 1 - l i j) i j)) else 0) := by
    intro i j
    rcases hl i j with e | e
    · rw [if_pos (by simp [e]), if_pos (by simp [e])]
      exact second_term p l v h pr lr hpr hlr hl i j e
    · rw [if_neg (by simp [e, one_sub_one]), if_neg (by simp [e, one_sub_one])]
  unfold twoPass direct
  simp only [hfirst, hsecond, hden]

end Cert.Margin
-- ==== Proof.PreFacts.lean ====
/-
  What the precondition says of the three argument arrays: every logit and every class count is a real number
  (|x| < +∞ on the extended reals leaves exactly the reals), and every label is 0 or 1.
-/
import proofs.«159326_j30880814858588_2_alg».proof.Pre_finite_inputs
import proofs.«159326_j30880814858588_2_alg».proof.Proof.Gen.Pre_finite_inputs
import proofs.«159326_j30880814858588_2_alg».proof.Proof.Words
import Idealize.ShloMosaic.Lib.ReduceAll
import Idealize.ShloMosaic.Lib.Affine
import Idealize.ShloMosaic.Lib.ValueIdx
import Idealize.ShloMosaic.PureOps.Ideal.Laws

noncomputable section

namespace Cert.PreFacts

open Idealize.ShloMosaic Cert.Pre_finite_inputs

instance : Subsingleton S_.Idx := ⟨fun a b => funext fun d => d.elim0⟩

/-- An extended real whose absolute value is below +∞ is a real number. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [Cert.Words.posInf] at h
  induction x using EReal.rec with
  | bot => exact absurd h (by simp [Ideal.cmpf_def, Ideal.cmp, Ideal.absf_def])
  | top => exact absurd h (by simp [Ideal.cmpf_def, Ideal.cmp, Ideal.absf_def])
  | coe r => exact ⟨r, rfl⟩

/-- Equal to the word of 0 or to the word of 1. -/
theorem zero_or_one (x : EReal)
    (h : IntOp.ori (FloatOps.cmpf (F := Ideal) (φ := .f32) .oeq x (Ideal.ofBits .f32 0x00000000#32))
      (FloatOps.cmpf (F := Ideal) (φ := .f32) .oeq x (Ideal.ofBits .f32 0x3F800000#32)) = 1#1) :
    x = 0 ∨ x = 1 := by
  rw [Cert.Words.zero, Cert.Words.one] at h
  rcases IntOp.ori_eq_one.mp h with e | e
  · left
    by_contra hne
    simp [Ideal.cmpf_def, Ideal.cmp, hne] at e
  · right
    by_contra hne
    simp [Ideal.cmpf_def, Ideal.cmp, hne] at e

/-- The precondition, read entry by entry. -/
theorem decode (a0 a1 : S4096x8192.Idx → EReal) (a2 : S8192.Idx → EReal)
    (h : fn (F := Ideal) a0 a1 a2 = fun _ => 1#1) :
    (∀ i, ∃ r : ℝ, a0 i = (r : EReal)) ∧ (∀ i, a1 i = 0 ∨ a1 i = 1) ∧ (∀ i, ∃ r : ℝ, a2 i = (r : EReal)) := by
  have h0 := congrFun h ValueIdx.ix0
  dsimp only [fn, fn_part1] at h0
  obtain ⟨h13, h19⟩ := IntOp.andi_eq_one.mp h0
  obtain ⟨h8, h12⟩ := IntOp.andi_eq_one.mp h13
  obtain ⟨h3, h7⟩ := IntOp.andi_eq_one.mp h8
  refine ⟨fun i => ?_, fun i => ?_, fun i => ?_⟩
  · exact real_of_abs_lt _ (Host.reduce_andi_all _ _ _ _ _ h3 i)
  · exact zero_or_one _ (Host.reduce_andi_all _ _ _ _ _ h19 i)
  · exact real_of_abs_lt _ (Host.reduce_andi_all _ _ _ _ _ h12 i)

end Cert.PreFacts

end
-- ==== Proof.InputFacts.lean ====
/-
  The hypotheses the agreement of the two forms asks of the inputs, from real logits and real class counts: the
  logistic of a real is a positive real; the reciprocal fourth root of a real c is positive — for c > 0 it is a positive
  real, at c = 0 the fourth root is 0 and 1/0 = +∞, and for c < 0 the real power |c|^(1/4)·cos(π/4) is still
  positive —; and the batch size 2^25 is 4096 · 8192.
-/
import proofs.«159326_j30880814858588_2_alg».proof.Proof.Inputs

noncomputable section

namespace Cert.Margin

open Idealize.ShloMosaic Idealize.ShloMosaic.ValueIdx

/-- The logistic of a real number is a positive real. -/
theorem logistic_real_pos (x : ℝ) : ∃ r : ℝ, 0 < r ∧ Ideal.logistic (x : EReal) = (r : EReal) :=
  ⟨(1 + Real.exp (-x))⁻¹, inv_pos.mpr (by have := Real.exp_pos (-x); linarith), Ideal.logistic_coe x⟩

/-- The real power c^(1/4) is nonnegative for every real c. -/
theorem rpow_quarter_nonneg (c : ℝ) : 0 ≤ Real.rpow c (1 / 4) := by
  rcases le_or_gt 0 c with hc | hc
  · exact Real.rpow_nonneg hc _
  · show 0 ≤ c ^ ((1 : ℝ) / 4)
    rw [Real.rpow_def_of_neg hc]
    refine mul_nonneg (Real.exp_pos _).le (Real.cos_nonneg_of_mem_Icc ⟨?_, ?_⟩)
    · have := Real.pi_pos; linarith
    · have := Real.pi_pos; linarith

/-- The reciprocal fourth root of a real number is positive on the extended reals. -/
theorem inv_quarter_pos (c : ℝ) :
    0 < Ideal.div 1 (Ideal.pow (c : EReal) (Ideal.ofBits .f32 0x3E800000#32)) := by
  rw [Cert.Words.quarter, Ideal.pow_coe_coe]
  have h0 := rpow_quarter_nonneg c
  rcases h0.eq_or_lt with h | h
  · rw [← h]
    simp [Ideal.div]
  · rw [Ideal.div_coe h.ne', one_mul]
    exact_mod_cast one_div_pos.mpr h

/-- Scores of real logits are positive reals. -/
theorem score_pos (x0 : (⟨2, ![4096, 8192]⟩ : Shape).Idx → EReal) (h : ∀ i, ∃ r : ℝ, x0 i = (r : EReal))
    (i : Fin 4096) (j : Fin 8192) : ∃ r : ℝ, 0 < r ∧ score x0 i j = (r : EReal) := by
  obtain ⟨x, hx⟩ := h (ix2 i j)
  unfold score
  rw [hx]
  exact logistic_real_pos x

/-- Margins of real class counts are positive. -/
theorem margin_pos (x2 : (⟨1, ![8192]⟩ : Shape).Idx → EReal) (h : ∀ i, ∃ r : ℝ, x2 i = (r : EReal))
    (j : Fin 8192) : 0 < margin x2 j := by
  obtain ⟨c, hc⟩ := h (ix1 j)
  unfold margin
  rw [hc]
  exact inv_quarter_pos c

/-- The batch word is the number of rows times the number of columns. -/
theorem batch_card : Ideal.ofBits .f32 0x4C000000#32
    = (((Fintype.card (Fin 4096) : ℝ) * (Fintype.card (Fin 8192) : ℝ) : ℝ) : EReal) := by
  rw [Cert.Words.batch]
  simp only [Fintype.card_fin]
  norm_num

end Cert.Margin

end
-- ==== Proof.lean ====
/-
  A class-balanced margin loss over a [4096, 8192] batch: the kernel against its jnp reference, over the extended reals.

  With p the logistic of the logits, l the labels (0 or 1) and v_j = 1 / count_j^(1/4) the per-column margins, the
  reference evaluates each half of the loss on its own: for the mask m = l (and then m = 1 − l) the shift
  δ = (v·m)·(½ / max(v·m)), the numerator e^(p − δ), the denominator e^(p − δ) + (row sum of p·(1−m)) + (total of p·m) − p,
  and the mean over the masked positions of −log of the quotient (of −log(1 − quotient) for the second half).
  The kernel makes two passes over the batch. The first keeps per-row statistics — the row sums of p·l and of p, the row
  maxima of v selected by the sign of l, the row counts —, the host folds them to two totals, two maxima and two
  counts, and the second pass evaluates both halves with one blended shift v·(l·s₁ + (1−l)·s₂), writing
  log(den) − (p − δ) for −log(num/den) in the first half.

  The two agree when every logit and class count is a real number and every label is 0 or 1: a 0/1 factor selects
  (for an infinite margin too, as x·0 = 0), the real sums regroup, the batch size 2^25 minus the total of l is the total
  of 1 − l, and at a positive label the shift is real and the denominator is at least the numerator e^y > 0, so
  −log(e^y/den) = log den − y. Each region's output columns are read off its blocks: point t of the 32-point grid
  covers rows 128t … 128t+127. Nothing is rewritten between the kernel as printed and its idealization, so that
  conjunct is trivial.
-/
import proofs.«159326_j30880814858588_2_alg».proof.Defs
import proofs.«159326_j30880814858588_2_alg».proof.Proof.Gen.Kernel
import proofs.«159326_j30880814858588_2_alg».proof.Proof.Gen.Kernel.Skeleton
import proofs.«159326_j30880814858588_2_alg».proof.Proof.Gen.Kernel.Launch
import proofs.«159326_j30880814858588_2_alg».proof.Proof.Gen.Kernel.Points
import proofs.«159326_j30880814858588_2_alg».proof.Proof.Gen.Kernel.Frame
import proofs.«159326_j30880814858588_2_alg».proof.Proof.Gen.KernelIdeal
import proofs.«159326_j30880814858588_2_alg».proof.Proof.Gen.KernelIdeal.Skeleton
import proofs.«159326_j30880814858588_2_alg».proof.Proof.Gen.KernelIdeal.Launch
import proofs.«159326_j30880814858588_2_alg».proof.Proof.Gen.KernelIdeal.Points
import proofs.«159326_j30880814858588_2_alg».proof.Proof.Gen.KernelIdeal.Frame
import proofs.«159326_j30880814858588_2_alg».proof.Proof.Gen.ReferenceIdeal
import proofs.«159326_j30880814858588_2_alg».proof.Proof.Gen.Pre_finite_inputs
import proofs.«159326_j30880814858588_2_alg».proof.Proof.Gen.ReferenceIdeal.Run
import proofs.«159326_j30880814858588_2_alg».proof.Proof.Gen.ReferenceIdeal.Read
import proofs.«159326_j30880814858588_2_alg».proof.Proof.KHost
import proofs.«159326_j30880814858588_2_alg».proof.Proof.RefValue
import proofs.«159326_j30880814858588_2_alg».proof.Proof.MarginAgree
import proofs.«159326_j30880814858588_2_alg».proof.Proof.PreFacts
import proofs.«159326_j30880814858588_2_alg».proof.Proof.InputFacts
import Idealize.ShloMosaic.Adequacy
import Idealize.ShloMosaic.Init

noncomputable section

namespace Cert.Proof

open Idealize.ShloMosaic Idealize.ShloMosaic.ValueIdx Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories agreeing on the arguments both programs end with the same scalar: the kernel's result is the
    two-pass form of the loss, the reference's the direct form, and under the precondition the two forms agree. -/
theorem algebraic : Cert.algebraic_KernelIdeal_ReferenceIdeal := by
  intro m ρ m' ρ' hpre hagree
  refine ⟨fun c => fun _ => Cert.Margin.twoPass
      (Cert.Margin.score (m ((c.tc : Thread Cert.KernelIdeal.nD Cert.KernelIdeal.τ).loc Cert.KernelIdeal.main_arg0)))
      (Cert.Margin.label (m ((c.tc : Thread Cert.KernelIdeal.nD Cert.KernelIdeal.τ).loc Cert.KernelIdeal.main_arg1)))
      (Cert.Margin.margin (m ((c.tc : Thread Cert.KernelIdeal.nD Cert.KernelIdeal.τ).loc Cert.KernelIdeal.main_arg2)))
      (Ideal.ofBits .f32 0x3F000000#32) (Ideal.ofBits .f32 0x4C000000#32),
    Cert.KernelIdeal.HostValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq, (hagree c).1, (hagree c).2.1, (hagree c).2.2]
  funext i
  rw [Cert.ReferenceIdeal.RefValue.result_eq]
  obtain ⟨h0, h1, h2⟩ := Cert.PreFacts.decode _ _ _ (hpre c)
  exact (Cert.Margin.twoPass_eq_direct _ _ _ _ _ (Cert.Margin.score_pos _ h0) (fun i j => h1 (ix2 i j))
    (Cert.Margin.margin_pos _ h2) Cert.Words.half Cert.Margin.batch_card).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
